-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S100000x64 : Shape := ⟨2, ![100000, 64]⟩
abbrev S4x8192x1 : Shape := ⟨3, ![4, 8192, 1]⟩
abbrev S4 : Shape := ⟨1, ![4]⟩
abbrev S8192x32 : Shape := ⟨2, ![8192, 32]⟩
abbrev S32 : Shape := ⟨1, ![32]⟩
abbrev S32x16 : Shape := ⟨2, ![32, 16]⟩
abbrev S16 : Shape := ⟨1, ![16]⟩
abbrev S8208x1 : Shape := ⟨2, ![8208, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x8192x1 : S_.BroadcastsInDim S4x8192x1 (![] : Fin 0 → Fin S4x8192x1.rank)
  reducesTo_S4x8192x1_S_d0_1_2 : S4x8192x1.ReducesTo [0, 1, 2] S_
  bcast_S_S4 : S_.BroadcastsInDim S4 (![] : Fin 0 → Fin S4.rank)
  reducesTo_S4_S_d0 : S4.ReducesTo [0] S_
  bcast_S_S8192x32 : S_.BroadcastsInDim S8192x32 (![] : Fin 0 → Fin S8192x32.rank)
  reducesTo_S8192x32_S_d0_1 : S8192x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S8208x1 : S_.BroadcastsInDim S8208x1 (![] : Fin 0 → Fin S8208x1.rank)
  reducesTo_S8208x1_S_d0_1 : S8208x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S8208x1 .f32) (main_arg9 : FVec F S1 .f32) (main_v33 : IVec S_ 1) : IVec S_ 1 :=
  let main_v34 : FVec F S8208x1 .f32 := Host.absf main_arg8
  let main_cst_12 : FVec F S_ .f32 := constant S_ .f32 0x7F800000#32
  let main_v35 : FVec F S8208x1 .f32 := broadcastInDim S8208x1 ![] bcast_S_S8208x1 main_cst_12
  let main_v36 : IVec S8208x1 1 := cmpf .olt main_v34 main_v35
  let main_c_13 : IVec S_ 1 := constantI S_ 1 1#1
  let main_v37 : IVec S_ 1 := (fun x v => Host.reduce IntOp.andi x v reducesTo_S8208x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S8208x1 .f32) (main_arg9 : FVec F S1 .f32) (main_v13 : IVec S_ 1) (main_v16 : IVec S8192x32 1) : IVec S_ 1 :=
  let main_c_5 : IVec S_ 1 := constantI S_ 1 1#1
  let main_v17 : IVec S_ 1 := (fun x v => Host.reduce IntOp.andi x v reducesTo_S8192x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : IVec S8192x128 32) (main_arg1 : FVec F S100000x64 .f32) (main_arg2 : FVec F S4x8192x1 .f32) (main_arg3 : FVec F S4 .f32) (main_arg4 : FVec F S8192x32 .f32) (main_arg5 : FVec F S32 .f32) (main_arg6 : FVec F S32x16 .f32) (main_arg7 : FVec F S16 .f32) (main_arg8 : FVec F S8208x1 .f32) (main_arg9 : FVec F S1 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x8192x1 .f32 := Host.absf main_arg2
  let main_cst_0 : FVec F S_ .f32 := constant S_ .f32 0x7F800000#32
  let main_v5 : FVec F S4x8192x1 .f32 := broadcastInDim S4x8192x1 ![] bcast_S_S4x8192x1 main_cst_0
  let main_v6 : IVec S4x8192x1 1 := cmpf .olt main_v4 main_v5
  let main_c_1 : IVec S_ 1 := constantI S_ 1 1#1
  let main_v7 : IVec S_ 1 := (fun x v => Host.reduce IntOp.andi x v reducesTo_S4x8192x1_S_d0_1_2 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S8192x32 .f32 := Host.absf main_arg4
  let main_cst_4 : FVec F S_ .f32 := constant S_ .f32 0x7F800000#32
  let main_v15 : FVec F S8192x32 .f32 := broadcastInDim S8192x32 ![] bcast_S_S8192x32 main_cst_4
  let main_v16 : IVec S8192x32 1 := cmpf .olt main_v14 main_v15
  fn_part1 (F := F) main_arg5 main_arg6 main_arg7 main_arg8 main_arg9 main_v13 main_v16
-- ==== Kernel.lean ====
abbrev S8192x128 : Shape := ⟨2, ![8192, 128]⟩
abbrev S100000x64 : Shape := ⟨2, ![100000, 64]⟩
abbrev S4x8192x1 : Shape := ⟨3, ![4, 8192, 1]⟩
abbrev S4 : Shape := ⟨1, ![4]⟩
abbrev S8192x32 : Shape := ⟨2, ![8192, 32]⟩
abbrev S32 : Shape := ⟨1, ![32]⟩
abbrev S32x16 : Shape := ⟨2, ![32, 16]⟩
abbrev S16 : Shape := ⟨1, ![16]⟩
abbrev S8208x1 : Shape := ⟨2, ![8208, 1]⟩
abbrev S1 : Shape := ⟨1, ![1]⟩
abbrev S_ : Shape := ⟨0, ![]⟩
abbrev S8192x128x1 : Shape := ⟨3, ![8192, 128, 1]⟩
abbrev S8192x128x64 : Shape := ⟨3, ![8192, 128, 64]⟩
abbrev S8192x8192 : Shape := ⟨2, ![8192, 8192]⟩
abbrev S4x8192 : Shape := ⟨2, ![4, 8192]⟩
abbrev S4x1 : Shape := ⟨2, ![4, 1]⟩
abbrev S32x8192 : Shape := ⟨2, ![32, 8192]⟩
abbrev S1x32 : Shape := ⟨2, ![1, 32]⟩
abbrev S1x16 : Shape := ⟨2, ![1, 16]⟩
abbrev S16x1 : Shape := ⟨2, ![16, 1]⟩
abbrev S8192x1 : Shape := ⟨2, ![8192, 1]⟩
abbrev S1x8192 : Shape := ⟨2, ![1, 8192]⟩
abbrev S1x1 : Shape := ⟨2, ![1, 1]⟩
abbrev S128x8192 : Shape := ⟨2, ![128, 8192]⟩
abbrev S128x1 : Shape := ⟨2, ![128, 1]⟩
abbrev S8192 : Shape := ⟨1, ![8192]⟩
abbrev S128 : Shape := ⟨1, ![128]⟩
abbrev S128x32 : Shape := ⟨2, ![128, 32]⟩
abbrev S128x16 : Shape := ⟨2, ![128, 16]⟩

abbrev nBuf : Space → Nat
  | .hbm => 31
  | .vmem => 13
  | .smem => 0
  | _ => 0

abbrev bufTy : (tb : Table) → Fin (tcTables nBuf tb) → BufTy
  | .hbm, ⟨0, _⟩ => ⟨S8192x128, .i32⟩
  | .hbm, ⟨1, _⟩ => ⟨S100000x64, .f32⟩
  | .hbm, ⟨2, _⟩ => ⟨S4x8192x1, .f32⟩
  | .hbm, ⟨3, _⟩ => ⟨S4, .f32⟩
  | .hbm, ⟨4, _⟩ => ⟨S8192x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S8208x1, .f32⟩
  | .hbm, ⟨9, _⟩ => ⟨S1, .f32⟩
  | .hbm, ⟨10, _⟩ => ⟨S_, .i32⟩
  | .hbm, ⟨11, _⟩ => ⟨S8192x128, .i32⟩
  | .hbm, ⟨12, _⟩ => ⟨S8192x128, .i1⟩
  | .hbm, ⟨13, _⟩ => ⟨S_, .i32⟩
  | .hbm, ⟨14, _⟩ => ⟨S8192x128, .i32⟩
  | .hbm, ⟨15, _⟩ => ⟨S8192x128, .i32⟩
  | .hbm, ⟨16, _⟩ => ⟨S8192x128, .i32⟩
  | .hbm, ⟨17, _⟩ => ⟨S8192x128x1, .i32⟩
  | .hbm, ⟨18, _⟩ => ⟨S8192x128x64, .f32⟩
  | .hbm, ⟨19, _⟩ => ⟨S8192x8192, .f32⟩
  | .hbm, ⟨20, _⟩ => ⟨S4x8192, .f32⟩
  | .hbm, ⟨21, _⟩ => ⟨S4x1, .f32⟩
  | .hbm, ⟨22, _⟩ => ⟨S32x8192, .f32⟩
  | .hbm, ⟨23, _⟩ => ⟨S1x32, .f32⟩
  | .hbm, ⟨24, _⟩ => ⟨S1x16, .f32⟩
  | .hbm, ⟨25, _⟩ => ⟨S16x1, .f32⟩
  | .hbm, ⟨26, _⟩ => ⟨S1x16, .f32⟩
  | .hbm, ⟨27, _⟩ => ⟨S8192x1, .f32⟩
  | .hbm, ⟨28, _⟩ => ⟨S1x8192, .f32⟩
  | .hbm, ⟨29, _⟩ => ⟨S1x1, .f32⟩
  | .hbm, ⟨30, _⟩ => ⟨S8192x1, .f32⟩
  | .local _ .vmem, ⟨0, _⟩ => ⟨S128x8192, .f32⟩
  | .local _ .vmem, ⟨1, _⟩ => ⟨S128x8192, .f32⟩
  | .local _ .vmem, ⟨2, _⟩ => ⟨S4x8192, .f32⟩
  | .local _ .vmem, ⟨3, _⟩ => ⟨S4x1, .f32⟩
  | .local _ .vmem, ⟨4, _⟩ => ⟨S32x8192, .f32⟩
  | .local _ .vmem, ⟨5, _⟩ => ⟨S1x32, .f32⟩
  | .local _ .vmem, ⟨6, _⟩ => ⟨S32x16, .f32⟩
  | .local _ .vmem, ⟨7, _⟩ => ⟨S1x16, .f32⟩
  | .local _ .vmem, ⟨8, _⟩ => ⟨S1x16, .f32⟩
  | .local _ .vmem, ⟨9, _⟩ => ⟨S1x8192, .f32⟩
  | .local _ .vmem, ⟨10, _⟩ => ⟨S1x1, .f32⟩
  | .local _ .vmem, ⟨11, _⟩ => ⟨S128x1, .f32⟩
  | .local _ .vmem, ⟨12, _⟩ => ⟨S128x1, .f32⟩
  | _, _ => ⟨S8192x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  shapeCasts_S8192x128x64_S8192x8192 : S8192x128x64.ShapeCasts S8192x8192
  shapeCasts_S4x8192x1_S4x8192 : S4x8192x1.ShapeCasts S4x8192
  shapeCasts_S4_S4x1 : S4.ShapeCasts S4x1
  transposes_S8192x32_S32x8192_1_0 : S8192x32.Transposes [1, 0] S32x8192
  shapeCasts_S32_S1x32 : S32.ShapeCasts S1x32
  shapeCasts_S16_S1x16 : S16.ShapeCasts S1x16
  slices_S8208x1_S16x1_0_0 : S8208x1.Slices ![0, 0] S16x1
  shapeCasts_S16x1_S1x16 : S16x1.ShapeCasts S1x16
  slices_S8208x1_S8192x1_16_0 : S8208x1.Slices ![16, 0] S8192x1
  shapeCasts_S8192x1_S1x8192 : S8192x1.ShapeCasts S1x8192
  shapeCasts_S1_S1x1 : S1.ShapeCasts S1x1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S4x8192_S1x8192_0_0 : ∀ a, (![0, 0] : Fin 2 → Nat) a + S1x8192.size a ≤ S4x8192.size a
  h_S1x8192 : 0 < S1x8192.numel
  shapeCasts_S1x8192_S8192 : S1x8192.ShapeCasts S8192
  shapeCasts_S8192_S1x8192 : S8192.ShapeCasts S1x8192
  broadcasts_S1x8192_S128x8192 : S1x8192.Broadcasts S128x8192
  reduces_S128x8192_S128 : S128x8192.Reduces [1] S128
  shapeCasts_S128_S128x1 : S128.ShapeCasts S128x1
  inb_S4x1_S1x1_0_0 : ∀ a, (![0, 0] : Fin 2 → Nat) a + S1x1.size a ≤ S4x1.size a
  h_S1x1 : 0 < S1x1.numel
  shapeCasts_S1x1_S1 : S1x1.ShapeCasts S1
  broadcasts_S1x1_S128x1 : S1x1.Broadcasts S128x1
  broadcasts_S128x1_S128x8192 : S128x1.Broadcasts S128x8192
  inb_S4x8192_S1x8192_1_0 : ∀ a, (![1, 0] : Fin 2 → Nat) a + S1x8192.size a ≤ S4x8192.size a
  inb_S4x1_S1x1_1_0 : ∀ a, (![1, 0] : Fin 2 → Nat) a + S1x1.size a ≤ S4x1.size a
  inb_S4x8192_S1x8192_2_0 : ∀ a, (![2, 0] : Fin 2 → Nat) a + S1x8192.size a ≤ S4x8192.size a
  inb_S4x1_S1x1_2_0 : ∀ a, (![2, 0] : Fin 2 → Nat) a + S1x1.size a ≤ S4x1.size a
  inb_S4x8192_S1x8192_3_0 : ∀ a, (![3, 0] : Fin 2 → Nat) a + S1x8192.size a ≤ S4x8192.size a
  inb_S4x1_S1x1_3_0 : ∀ a, (![3, 0] : Fin 2 → Nat) a + S1x1.size a ≤ S4x1.size a
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  reduces_S128x16_S128 : S128x16.Reduces [1] S128
  inb_S1x8192_S1x8192_0_0 : ∀ a, (![0, 0] : Fin 2 → Nat) a + S1x8192.size a ≤ S1x8192.size a
  shapeCasts_S1x8192_S1x8192 : S1x8192.ShapeCasts S1x8192
  inb_S1x1_S1x1_0_0 : ∀ a, (![0, 0] : Fin 2 → Nat) a + S1x1.size a ≤ S1x1.size a
  inb_S128x1_S128x1_0_0 : ∀ a, (![0, 0] : Fin 2 → Nat) a + S128x1.size a ≤ S128x1.size a
  h_S128x1 : 0 < S128x1.numel
  gather_S100000x64_S8192x128x1_S8192x128x64_2_0_n_n_0_2_164_wf : GatherDims.WF S100000x64 S8192x128x1 S8192x128x64 [2] [0] [] [0] [] 2 ![1, 64]
  dot_S128x8192_S32x8192_S128x32_1_1_0_0_n_n_wf : DotDims.WF S128x8192 S32x8192 S128x32 [1] [1] [0] [0] [] []
  dot_S128x32_S32x16_S128x16_1_0_0_1_n_n_wf : DotDims.WF S128x32 S32x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192.size a ≤ S4x8192.size a
  hwx0_1 : ∀ i : grid0.Coords, EltTy.bits .f32 = 32 ∨ (Rect.block (s := S4x8192) S4x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S32x8192.size a
  hwx0_3 : ∀ i : grid0.Coords, EltTy.bits .f32 = 32 ∨ (Rect.block (s := S32x8192) S32x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x16.size a ≤ S32x16.size a
  hwx0_5 : ∀ i : grid0.Coords, EltTy.bits .f32 = 32 ∨ (Rect.block (s := S32x16) S32x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x8192.size a ≤ S1x8192.size a
  hwx0_8 : ∀ i : grid0.Coords, EltTy.bits .f32 = 32 ∨ (Rect.block (s := S1x8192) S1x8192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S8192x1.size a
  hwx0_10 : ∀ i : grid0.Coords, EltTy.bits .f32 = 32 ∨ (Rect.block (s := S8192x1) S128x1.size (cc0_transform_10 i) (hinb0_10 i)).WholeWords (EltTy.packing .f32)

variable [Facts₀]

def gather_S100000x64_S8192x128x1_S8192x128x64_2_0_n_n_0_2_164 : GatherDims S100000x64 S8192x128x1 S8192x128x64 where
  offsetDims := [2]
  collapsedSliceDims := [0]
  operandBatchingDims := []
  startIndicesBatchingDims := []
  startIndexMap := [0]
  indexVectorDim := 2
  sliceSizes := ![1, 64]
  wf := gather_S100000x64_S8192x128x1_S8192x128x64_2_0_n_n_0_2_164_wf
def dot_S128x8192_S32x8192_S128x32_1_1_0_0_n_n : DotDims S128x8192 S32x8192 S128x32 where
  lhsContracting := [1]
  rhsContracting := [1]
  lhsNonContracting := [0]
  rhsNonContracting := [0]
  lhsBatch := []
  rhsBatch := []
  wf := dot_S128x8192_S32x8192_S128x32_1_1_0_0_n_n_wf
def dot_S128x32_S32x16_S128x16_1_0_0_1_n_n : DotDims S128x32 S32x16 S128x16 where
  lhsContracting := [1]
  rhsContracting := [0]
  lhsNonContracting := [0]
  rhsNonContracting := [1]
  lhsBatch := []
  rhsBatch := []
  wf := dot_S128x32_S32x16_S128x16_1_0_0_1_n_n_wf

abbrev win0_0 : Pipeline.Window sig grid0 :=
  Pipeline.Window.ofSpec (Memref.whole main_v7) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S32x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x8192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x128 : Shape := ⟨2, ![8192, 128]⟩
abbrev S100000x64 : Shape := ⟨2, ![100000, 64]⟩
abbrev S4x8192x1 : Shape := ⟨3, ![4, 8192, 1]⟩
abbrev S4 : Shape := ⟨1, ![4]⟩
abbrev S8192x32 : Shape := ⟨2, ![8192, 32]⟩
abbrev S32 : Shape := ⟨1, ![32]⟩
abbrev S32x16 : Shape := ⟨2, ![32, 16]⟩
abbrev S16 : Shape := ⟨1, ![16]⟩
abbrev S8208x1 : Shape := ⟨2, ![8208, 1]⟩
abbrev S1 : Shape := ⟨1, ![1]⟩
abbrev S_ : Shape := ⟨0, ![]⟩
abbrev S8192x128x1 : Shape := ⟨3, ![8192, 128, 1]⟩
abbrev S8192x128x64 : Shape := ⟨3, ![8192, 128, 64]⟩
abbrev S8192x8192 : Shape := ⟨2, ![8192, 8192]⟩
abbrev S1x8192x1 : Shape := ⟨3, ![1, 8192, 1]⟩
abbrev S8192x1 : Shape := ⟨2, ![8192, 1]⟩
abbrev S1x32 : Shape := ⟨2, ![1, 32]⟩
abbrev S8192x16 : Shape := ⟨2, ![8192, 16]⟩
abbrev S1x16 : Shape := ⟨2, ![1, 16]⟩
abbrev S8192x8208 : Shape := ⟨2, ![8192, 8208]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192x128, .i32⟩
  | .hbm, ⟨1, _⟩ => ⟨S100000x64, .f32⟩
  | .hbm, ⟨2, _⟩ => ⟨S4x8192x1, .f32⟩
  | .hbm, ⟨3, _⟩ => ⟨S4, .f32⟩
  | .hbm, ⟨4, _⟩ => ⟨S8192x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S8208x1, .f32⟩
  | .hbm, ⟨9, _⟩ => ⟨S1, .f32⟩
  | .hbm, ⟨10, _⟩ => ⟨S_, .i32⟩
  | .hbm, ⟨11, _⟩ => ⟨S8192x128, .i32⟩
  | .hbm, ⟨12, _⟩ => ⟨S8192x128, .i1⟩
  | .hbm, ⟨13, _⟩ => ⟨S_, .i32⟩
  | .hbm, ⟨14, _⟩ => ⟨S8192x128, .i32⟩
  | .hbm, ⟨15, _⟩ => ⟨S8192x128, .i32⟩
  | .hbm, ⟨16, _⟩ => ⟨S8192x128, .i32⟩
  | .hbm, ⟨17, _⟩ => ⟨S8192x128x1, .i32⟩
  | .hbm, ⟨18, _⟩ => ⟨S8192x128x64, .f32⟩
  | .hbm, ⟨19, _⟩ => ⟨S8192x8192, .f32⟩
  | .hbm, ⟨20, _⟩ => ⟨S1x8192x1, .f32⟩
  | .hbm, ⟨21, _⟩ => ⟨S8192x1, .f32⟩
  | .hbm, ⟨22, _⟩ => ⟨S8192x1, .f32⟩
  | .hbm, ⟨23, _⟩ => ⟨S1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x1, .f32⟩
  | .hbm, ⟨31, _⟩ => ⟨S8192x1, .f32⟩
  | .hbm, ⟨32, _⟩ => ⟨S8192x1, .f32⟩
  | .hbm, ⟨33, _⟩ => ⟨S1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S1x8192x1, .f32⟩
  | .hbm, ⟨40, _⟩ => ⟨S8192x1, .f32⟩
  | .hbm, ⟨41, _⟩ => ⟨S8192x1, .f32⟩
  | .hbm, ⟨42, _⟩ => ⟨S1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S1x8192x1, .f32⟩
  | .hbm, ⟨50, _⟩ => ⟨S8192x1, .f32⟩
  | .hbm, ⟨51, _⟩ => ⟨S8192x1, .f32⟩
  | .hbm, ⟨52, _⟩ => ⟨S1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S8192x32, .f32⟩
  | .hbm, ⟨59, _⟩ => ⟨S1x32, .f32⟩
  | .hbm, ⟨60, _⟩ => ⟨S8192x32, .f32⟩
  | .hbm, ⟨61, _⟩ => ⟨S8192x32, .f32⟩
  | .hbm, ⟨62, _⟩ => ⟨S_, .f32⟩
  | .hbm, ⟨63, _⟩ => ⟨S8192x32, .f32⟩
  | .hbm, ⟨64, _⟩ => ⟨S8192x32, .f32⟩
  | .hbm, ⟨65, _⟩ => ⟨S8192x16, .f32⟩
  | .hbm, ⟨66, _⟩ => ⟨S1x16, .f32⟩
  | .hbm, ⟨67, _⟩ => ⟨S8192x16, .f32⟩
  | .hbm, ⟨68, _⟩ => ⟨S8192x16, .f32⟩
  | .hbm, ⟨69, _⟩ => ⟨S_, .f32⟩
  | .hbm, ⟨70, _⟩ => ⟨S8192x16, .f32⟩
  | .hbm, ⟨71, _⟩ => ⟨S8192x16, .f32⟩
  | .hbm, ⟨72, _⟩ => ⟨S8192x8208, .f32⟩
  | .hbm, ⟨73, _⟩ => ⟨S8192x1, .f32⟩
  | .hbm, ⟨74, _⟩ => ⟨S1x1, .f32⟩
  | .hbm, ⟨75, _⟩ => ⟨S8192x1, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | _, _ => ⟨S8192x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call0_cst : Ref sig .tc := ⟨.hbm, 62, rfl⟩
abbrev main_call0_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_cst : Ref sig .tc := ⟨.hbm, 69, rfl⟩
abbrev main_call1_v0 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst : Ref sig .tc := ⟨.hbm, 79, rfl⟩
abbrev main_v63 : Ref sig .tc := ⟨.hbm, 80, rfl⟩
abbrev main_v64 : Ref sig .tc := ⟨.hbm, 81, rfl⟩
abbrev main_cst_1 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  bcast_S8192x128_S8192x128x1_0_1 : S8192x128.BroadcastsInDim S8192x128x1 (![0, 1] : Fin 2 → Fin S8192x128x1.rank)
  shapeCasts_S8192x128x64_S8192x8192 : S8192x128x64.ShapeCasts S8192x8192
  slices_S4x8192x1_S1x8192x1_0_0_0 : S4x8192x1.Slices ![0, 0, 0] S1x8192x1
  shapeCasts_S1x8192x1_S8192x1 : S1x8192x1.ShapeCasts S8192x1
  slices_S4_S1_0 : S4.Slices ![0] S1
  shapeCasts_S1_S_ : S1.ShapeCasts S_
  bcast_S_S8192x1 : S_.BroadcastsInDim S8192x1 (![] : Fin 0 → Fin S8192x1.rank)
  bcast_S8192x1_S8192x8192_0_1 : S8192x1.BroadcastsInDim S8192x8192 (![0, 1] : Fin 2 → Fin S8192x8192.rank)
  slices_S4x8192x1_S1x8192x1_1_0_0 : S4x8192x1.Slices ![1, 0, 0] S1x8192x1
  slices_S4_S1_1 : S4.Slices ![1] S1
  slices_S4x8192x1_S1x8192x1_2_0_0 : S4x8192x1.Slices ![2, 0, 0] S1x8192x1
  slices_S4_S1_2 : S4.Slices ![2] S1
  slices_S4x8192x1_S1x8192x1_3_0_0 : S4x8192x1.Slices ![3, 0, 0] S1x8192x1
  slices_S4_S1_3 : S4.Slices ![3] S1
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  concatenates_S8192x16_S8192x8192_S8192x8208_d1 : Shape.Concatenates [S8192x16, S8192x8192] S8192x8208 1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  gather_S100000x64_S8192x128x1_S8192x128x64_2_0_n_n_0_2_164_wf : GatherDims.WF S100000x64 S8192x128x1 S8192x128x64 [2] [0] [] [0] [] 2 ![1, 64]
  dot_S8192x8192_S8192x1_S8192x1_1_0_0_1_n_n_wf : DotDims.WF S8192x8192 S8192x1 S8192x1 [1] [0] [0] [1] [] []
  dot_S8192x8192_S8192x32_S8192x32_1_0_0_1_n_n_wf : DotDims.WF S8192x8192 S8192x32 S8192x32 [1] [0] [0] [1] [] []
  dot_S8192x32_S32x16_S8192x16_1_0_0_1_n_n_wf : DotDims.WF S8192x32 S32x16 S8192x16 [1] [0] [0] [1] [] []
  dot_S8192x8208_S8208x1_S8192x1_1_0_0_1_n_n_wf : DotDims.WF S8192x8208 S8208x1 S8192x1 [1] [0] [0] [1] [] []

variable [Facts₀]

def gather_S100000x64_S8192x128x1_S8192x128x64_2_0_n_n_0_2_164 : GatherDims S100000x64 S8192x128x1 S8192x128x64 where
  offsetDims := [2]
  collapsedSliceDims := [0]
  operandBatchingDims := []
  startIndicesBatchingDims := []
  startIndexMap := [0]
  indexVectorDim := 2
  sliceSizes := ![1, 64]
  wf := gather_S100000x64_S8192x128x1_S8192x128x64_2_0_n_n_0_2_164_wf
def dot_S8192x8192_S8192x1_S8192x1_1_0_0_1_n_n : DotDims S8192x8192 S8192x1 S8192x1 where
  lhsContracting := [1]
  rhsContracting := [0]
  lhsNonContracting := [0]
  rhsNonContracting := [1]
  lhsBatch := []
  rhsBatch := []
  wf := dot_S8192x8192_S8192x1_S8192x1_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x8208_S8208x1_S8192x1_1_0_0_1_n_n : DotDims S8192x8208 S8208x1 S8192x1 where
  lhsContracting := [1]
  rhsContracting := [0]
  lhsNonContracting := [0]
  rhsNonContracting := [1]
  lhsBatch := []
  rhsBatch := []
  wf := dot_S8192x8208_S8208x1_S8192x1_1_0_0_1_n_n_wf

class Facts : Prop extends Facts₀ where

variable [Facts]
-- ==== Proof.Spec.lean ====
/-
  One batch row of a deep-and-cross network, on the extended reals.

  A row r of D embedded features goes through four cross layers.  Layer l forms the scalar
  g = (Σ_d t_d · w_{l,d}) + b_l from the running row t (the first one is r itself) and multiplies the ORIGINAL row
  by it; layers 0 and 2 add that product to the running row, layers 1 and 3 replace the running row by it.  The last
  running row feeds two dense layers with the rectifier max(·, 0), of widths H1 and H2.  The output is the logistic
  function of  (Σ_j h_j · u_j  +  Σ_d r_d · v_d)  +  c,  where (u, v) is one weight column of length H2 + D cut after
  its first H2 entries: the sum over the whole column of the row (h ‖ r) is this sum of two, addition of extended
  reals being commutative and associative.  Nothing here needs the inputs finite.

  The result array lists that number for each of the 8192 rows of the embedding matrix.
-/
import Idealize.ShloMosaic.Lib.ValueIdx
import Idealize.ShloMosaic.Lib.IdealHost
import Idealize.ShloMosaic.PureOps.Ideal.Laws

noncomputable section

open scoped BigOperators

namespace Cert.DeepCross

open Idealize.ShloMosaic Idealize.ShloMosaic.ValueIdx

variable {D H1 H2 : ℕ}

/-! ## One row -/

/-- The scalar a cross layer multiplies the original row with: the inner product of the running row t with the layer's
    weight row w, plus the layer's bias b. -/
def gate (t w : Fin D → EReal) (b : EReal) : EReal := (∑ d : Fin D, t d * w d) + b

section cross

variable (r : Fin D → EReal) (cw : Fin 4 → Fin D → EReal) (cb : Fin 4 → EReal)

/-- The running row after layer 0: r + r · g₀. -/
def temp1 : Fin D → EReal := fun d => r d + r d * gate r (cw 0) (cb 0)

/-- After layer 1: r · g₁, the gate taken of the row after layer 0. -/
def temp2 : Fin D → EReal := fun d => r d * gate (temp1 r cw cb) (cw 1) (cb 1)

/-- After layer 2: the previous row plus r · g₂. -/
def temp3 : Fin D → EReal := fun d => temp2 r cw cb d + r d * gate (temp2 r cw cb) (cw 2) (cb 2)

/-- After layer 3: r · g₃. -/
def temp4 : Fin D → EReal := fun d => r d * gate (temp3 r cw cb) (cw 3) (cb 3)

end cross

/-- A dense layer followed by the rectifier: entry n is max(Σ_k x_k · w_{k,n} + b_n, 0), the zero written as the
    single-precision zero word (the same word on both sides of the comparison, never evaluated). -/
def dense {K N : ℕ} (x : Fin K → EReal) (w : Fin K → Fin N → EReal) (b : Fin N → EReal) : Fin N → EReal :=
  fun n => max ((∑ k : Fin K, x k * w k n) + b n) (Ideal.ofBits .f32 0x00000000#32)

/-- The network's output for one row. -/
def rowOut (r : Fin D → EReal) (cw : Fin 4 → Fin D → EReal) (cb : Fin 4 → EReal) (w1 : Fin D → Fin H1 → EReal)
    (b1 : Fin H1 → EReal) (w2 : Fin H1 → Fin H2 → EReal) (b2 : Fin H2 → EReal) (u : Fin H2 → EReal) (v : Fin D → EReal)
    (c : EReal) : EReal :=
  Ideal.logistic (((∑ j : Fin H2, dense (dense (temp4 r cw cb) w1 b1) w2 b2 j * u j) + ∑ d : Fin D, r d * v d) + c)

/-- The logistic function is 1 / (1 + e^(-x)) with the extended reals' conventions at the infinities, the two ones
    written as the single-precision word of 1. -/
theorem logistic_expanded (x : EReal) :
    Ideal.div (Ideal.ofBits .f32 0x3F800000#32) (Ideal.ofBits .f32 0x3F800000#32 + Ideal.exp (-x)) = Ideal.logistic x := by
  rw [Ideal.ofBits_one_f32]; rfl

/-! ## The arrays read as rows, matrices and vectors -/

/-- Row b of the 8192 × 8192 embedding matrix. -/
def erow (X : (⟨2, ![8192, 8192]⟩ : Shape).Idx → EReal) (b : Fin 8192) : Fin 8192 → EReal := fun d => X (ix2 b d)

theorem erow_apply (X : (⟨2, ![8192, 8192]⟩ : Shape).Idx → EReal) (b d : Fin 8192) : erow X b d = X (ix2 b d) := rfl

/-- The cross layers' weight rows: layer l's is a2 (l, ·, 0). -/
def crossW (a2 : (⟨3, ![4, 8192, 1]⟩ : Shape).Idx → EReal) : Fin 4 → Fin 8192 → EReal :=
  fun l d => a2 (ix3 l d (0 : Fin 1))

theorem crossW_apply (a2 : (⟨3, ![4, 8192, 1]⟩ : Shape).Idx → EReal) (l : Fin 4) (d : Fin 8192) :
    crossW a2 l d = a2 (ix3 l d (0 : Fin 1)) := rfl

/-- The cross layers' biases. -/
def crossB (a3 : (⟨1, ![4]⟩ : Shape).Idx → EReal) : Fin 4 → EReal := fun l => a3 (ix1 l)

theorem crossB_apply (a3 : (⟨1, ![4]⟩ : Shape).Idx → EReal) (l : Fin 4) : crossB a3 l = a3 (ix1 l) := rfl

/-- A rank-2 array as a matrix. -/
def mat {a b : ℕ} (A : (⟨2, ![a, b]⟩ : Shape).Idx → EReal) : Fin a → Fin b → EReal := fun i j => A (ix2 i j)

theorem mat_apply {a b : ℕ} (A : (⟨2, ![a, b]⟩ : Shape).Idx → EReal) (i : Fin a) (j : Fin b) : mat A i j = A (ix2 i j) := rfl

/-- A rank-1 array as a vector. -/
def vec {a : ℕ} (v : (⟨1, ![a]⟩ : Shape).Idx → EReal) : Fin a → EReal := fun i => v (ix1 i)

theorem vec_apply {a : ℕ} (v : (⟨1, ![a]⟩ : Shape).Idx → EReal) (i : Fin a) : vec v i = v (ix1 i) := rfl

/-- The first 16 entries of the final weight column: they meet the second dense layer's output. -/
def headW (a8 : (⟨2, ![8208, 1]⟩ : Shape).Idx → EReal) : Fin 16 → EReal :=
  fun j => a8 (ix2 (⟨j.val, by omega⟩ : Fin 8208) (0 : Fin 1))

theorem headW_apply (a8 : (⟨2, ![8208, 1]⟩ : Shape).Idx → EReal) (j : Fin 16) :
    headW a8 j = a8 (ix2 (⟨j.val, by omega⟩ : Fin 8208) (0 : Fin 1)) := rfl

/-- Its remaining 8192 entries: they meet the embedding row itself. -/
def tailW (a8 : (⟨2, ![8208, 1]⟩ : Shape).Idx → EReal) : Fin 8192 → EReal :=
  fun d => a8 (ix2 (⟨16 + d.val, by omega⟩ : Fin 8208) (0 : Fin 1))

theorem tailW_apply (a8 : (⟨2, ![8208, 1]⟩ : Shape).Idx → EReal) (d : Fin 8192) :
    tailW a8 d = a8 (ix2 (⟨16 + d.val, by omega⟩ : Fin 8208) (0 : Fin 1)) := rfl

/-- The result array: entry (b, 0) is the network's output for row b of the embedding matrix X, the nine parameter
    arrays read as above. -/
def outArr (X : (⟨2, ![8192, 8192]⟩ : Shape).Idx → EReal) (a2 : (⟨3, ![4, 8192, 1]⟩ : Shape).Idx → EReal)
    (a3 : (⟨1, ![4]⟩ : Shape).Idx → EReal) (a4 : (⟨2, ![8192, 32]⟩ : Shape).Idx → EReal)
    (a5 : (⟨1, ![32]⟩ : Shape).Idx → EReal) (a6 : (⟨2, ![32, 16]⟩ : Shape).Idx → EReal)
    (a7 : (⟨1, ![16]⟩ : Shape).Idx → EReal) (a8 : (⟨2, ![8208, 1]⟩ : Shape).Idx → EReal)
    (a9 : (⟨1, ![1]⟩ : Shape).Idx → EReal) : (⟨2, ![8192, 1]⟩ : Shape).Idx → EReal :=
  fun i => rowOut (erow X (i 0)) (crossW a2) (crossB a3) (mat a4) (vec a5) (mat a6) (vec a7) (headW a8) (tailW a8)
    (a9 (ix1 (0 : Fin 1)))

theorem outArr_apply (X : (⟨2, ![8192, 8192]⟩ : Shape).Idx → EReal) (a2 : (⟨3, ![4, 8192, 1]⟩ : Shape).Idx → EReal)
    (a3 : (⟨1, ![4]⟩ : Shape).Idx → EReal) (a4 : (⟨2, ![8192, 32]⟩ : Shape).Idx → EReal)
    (a5 : (⟨1, ![32]⟩ : Shape).Idx → EReal) (a6 : (⟨2, ![32, 16]⟩ : Shape).Idx → EReal)
    (a7 : (⟨1, ![16]⟩ : Shape).Idx → EReal) (a8 : (⟨2, ![8208, 1]⟩ : Shape).Idx → EReal)
    (a9 : (⟨1, ![1]⟩ : Shape).Idx → EReal) (b : Fin 8192) (z : Fin 1) :
    outArr X a2 a3 a4 a5 a6 a7 a8 a9 (ix2 b z)
      = rowOut (erow X b) (crossW a2) (crossB a3) (mat a4) (vec a5) (mat a6) (vec a7) (headW a8) (tailW a8)
          (a9 (ix1 (0 : Fin 1))) := rfl

end Cert.DeepCross

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.KernelRow.lean ====
/-
  What the kernel body stores for one block of 128 rows, read at a row.

  The body holds the block of the embedding matrix and every parameter whole.  Each cross layer is a sum along the lanes
  of the running block times one weight row repeated down the rows, kept as a column, plus a one-entry bias repeated
  down the rows; the block is then multiplied by that column repeated along the lanes.  Two products into a zero
  accumulator with a repeated bias row under max(·, 0) follow (their operands are retyped to a shorter format, which on
  the extended reals changes nothing), and the stored column is the logistic function of two lane sums and a bias.
  Read at row p, these are the lines of the specification for the row p of the block.
-/
import proofs.«102186_j43224550867491_1_alg».proof.Proof.Gen.KernelIdeal.Frame
import proofs.«102186_j43224550867491_1_alg».proof.Proof.Spec
import proofs.«102186_j43224550867491_1_alg».proof.Proof.LibVecRead
import proofs.«102186_j43224550867491_1_alg».proof.Proof.LibAttnRead
import Idealize.ShloMosaic.Lib.ValueLayout
import Idealize.ShloMosaic.Lib.Pipeline.Value

noncomputable section

open scoped BigOperators

namespace Cert.DeepCross.Kern

open Cert.KernelIdeal Cert.KernelIdeal.Gen Idealize.ShloMosaic Idealize.ShloMosaic.ValueIdx
open Cert.DeepCross

/-! ## Layout reads -/

/-- A sum along the 8192 lanes, kept as a column, at row p. -/
theorem colSum (src : FVec Ideal S128x8192 .f32) (p : Fin 128) (z : Fin 1) :
    shapeCast S128x1 (multiReduction .add [1] S128 src 0x00000000#32 reduces_S128x8192_S128 (.inl rfl) rfl) shapeCasts_S128_S128x1 (ix2 p z)
      = ∑ k : Fin 8192, src (ix2 p k) :=
  (Cert.VecRead.shapeCast_col_apply _ _ p z).trans (Cert.VecRead.laneSum_apply src _ _ _ p)

/-- The same along 16 lanes. -/
theorem colSum16 (src : FVec Ideal S128x16 .f32) (p : Fin 128) (z : Fin 1) :
    shapeCast S128x1 (multiReduction .add [1] S128 src 0x00000000#32 reduces_S128x16_S128 (.inl rfl) rfl) shapeCasts_S128_S128x1 (ix2 p z)
      = ∑ k : Fin 16, src (ix2 p k) :=
  (Cert.VecRead.shapeCast_col_apply _ _ p z).trans (Cert.VecRead.laneSum_apply src _ _ _ p)

/-- A weight row, flattened and restored, repeated down the rows. -/
theorem rowRep (w : Vec Ideal S1x8192 .f32) (p : Fin 128) (k : Fin 8192) :
    broadcastTo S128x8192 (shapeCast S1x8192 (shapeCast S8192 w shapeCasts_S1x8192_S8192) shapeCasts_S8192_S1x8192) broadcasts_S1x8192_S128x8192 (ix2 p k)
      = w (ix2 (0 : Fin 1) k) :=
  (broadcastTo_1b_ab_apply _ _ p k).trans (congrFun (shapeCast_shapeCast w _ _) _)

/-- A row cast to its own shape, repeated down the rows. -/
theorem rowRepSelf (w : Vec Ideal S1x8192 .f32) (p : Fin 128) (k : Fin 8192) :
    broadcastTo S128x8192 (shapeCast S1x8192 w shapeCasts_S1x8192_S1x8192) broadcasts_S1x8192_S128x8192 (ix2 p k) = w (ix2 (0 : Fin 1) k) :=
  (broadcastTo_1b_ab_apply _ _ p k).trans (congrFun (shapeCast_self w _) _)

theorem rowRep32 (B : Vec Ideal S1x32 .f32) (p : Fin 128) (n : Fin 32) :
    broadcastTo S128x32 (shapeCast S1x32 B shapeCasts_S1x32_S1x32) broadcasts_S1x32_S128x32 (ix2 p n) = B (ix2 (0 : Fin 1) n) :=
  (broadcastTo_1b_ab_apply _ _ p n).trans (congrFun (shapeCast_self B _) _)

theorem rowRep16 (B : Vec Ideal S1x16 .f32) (p : Fin 128) (j : Fin 16) :
    broadcastTo S128x16 (shapeCast S1x16 B shapeCasts_S1x16_S1x16) broadcasts_S1x16_S128x16 (ix2 p j) = B (ix2 (0 : Fin 1) j) :=
  (broadcastTo_1b_ab_apply _ _ p j).trans (congrFun (shapeCast_self B _) _)

/-- A one-entry array, flattened and restored, repeated down the rows. -/
theorem scalarRep (c : Vec Ideal S1x1 .f32) (p : Fin 128) (z : Fin 1) :
    broadcastTo S128x1 (shapeCast S1x1 (shapeCast S1 c shapeCasts_S1x1_S1) shapeCasts_S1_S1x1) broadcasts_S1x1_S128x1 (ix2 p z)
      = c (ix2 (0 : Fin 1) (0 : Fin 1)) := by
  obtain rfl : z = 0 := Fin.ext (by omega)
  exact (broadcastTo_1b_ab_apply _ _ p 0).trans (congrFun (shapeCast_shapeCast c _ _) _)

/-! ## A cross layer's gate column and the block scaled by it, in the body's spelling -/

/-- The gate column: lane sums of t times the repeated weight row, plus the repeated bias. -/
def gcol (t : FVec Ideal S128x8192 .f32) (w : Vec Ideal S1x8192 .f32) (c : Vec Ideal S1x1 .f32) : FVec Ideal S128x1 .f32 :=
  addf (shapeCast S128x1 (multiReduction .add [1] S128 (mulf t (broadcastTo S128x8192 (shapeCast S1x8192 (shapeCast S8192 w shapeCasts_S1x8192_S8192) shapeCasts_S8192_S1x8192) broadcasts_S1x8192_S128x8192)) 0x00000000#32 reduces_S128x8192_S128 (.inl rfl) rfl) shapeCasts_S128_S128x1)
    (broadcastTo S128x1 (shapeCast S1x1 (shapeCast S1 c shapeCasts_S1x1_S1) shapeCasts_S1_S1x1) broadcasts_S1x1_S128x1)

theorem gcol_apply (t : FVec Ideal S128x8192 .f32) (w : Vec Ideal S1x8192 .f32) (c : Vec Ideal S1x1 .f32) (p : Fin 128) (z : Fin 1) :
    gcol t w c (ix2 p z) = gate (fun d => t (ix2 p d)) (fun d => w (ix2 (0 : Fin 1) d)) (c (ix2 (0 : Fin 1) (0 : Fin 1))) := by
  refine (congrArg₂ (fun a b : EReal => a + b) (colSum _ p z) (scalarRep c p z)).trans ?_
  exact congrArg (fun s : EReal => s + c (ix2 (0 : Fin 1) (0 : Fin 1)))
    (Finset.sum_congr rfl fun k _ => congrArg (fun y : EReal => t (ix2 p k) * y) (rowRep w p k))

/-- The gate column at row p, from the row of t, the weight row and the bias. -/
theorem gcol_row (t : FVec Ideal S128x8192 .f32) (w : Vec Ideal S1x8192 .f32) (c : Vec Ideal S1x1 .f32) (p : Fin 128)
    (tr wr : Fin 8192 → EReal) (cs : EReal) (ht : ∀ k, t (ix2 p k) = tr k) (hw : ∀ k, w (ix2 (0 : Fin 1) k) = wr k)
    (hc : c (ix2 (0 : Fin 1) (0 : Fin 1)) = cs) (z : Fin 1) : gcol t w c (ix2 p z) = gate tr wr cs := by
  rw [gcol_apply, show (fun d => t (ix2 p d)) = tr from funext ht, show (fun d => w (ix2 (0 : Fin 1) d)) = wr from funext hw, hc]

/-- The block x multiplied by a column repeated along the lanes. -/
def scaled (x : FVec Ideal S128x8192 .f32) (g : FVec Ideal S128x1 .f32) : FVec Ideal S128x8192 .f32 :=
  mulf x (broadcastTo S128x8192 g broadcasts_S128x1_S128x8192)

theorem scaled_apply (x : FVec Ideal S128x8192 .f32) (g : FVec Ideal S128x1 .f32) (p : Fin 128) (d : Fin 8192) :
    scaled x g (ix2 p d) = x (ix2 p d) * g (ix2 p (0 : Fin 1)) :=
  congrArg (fun y : EReal => x (ix2 p d) * y) (Cert.VecRead.broadcastTo_col_apply g _ p d)

/-! ## The running block through the four cross layers -/

/-- After layer 0. -/
def kt1 (x : FVec Ideal S128x8192 .f32) (w0 : Vec Ideal S1x8192 .f32) (c0 : Vec Ideal S1x1 .f32) : FVec Ideal S128x8192 .f32 := addf x (scaled x (gcol x w0 c0))
/-- After layer 1. -/
def kt2 (x : FVec Ideal S128x8192 .f32) (w0 : Vec Ideal S1x8192 .f32) (c0 : Vec Ideal S1x1 .f32) (w1 : Vec Ideal S1x8192 .f32) (c1 : Vec Ideal S1x1 .f32) : FVec Ideal S128x8192 .f32 := scaled x (gcol (kt1 x w0 c0) w1 c1)
/-- After layer 2. -/
def kt3 (x : FVec Ideal S128x8192 .f32) (w0 : Vec Ideal S1x8192 .f32) (c0 : Vec Ideal S1x1 .f32) (w1 : Vec Ideal S1x8192 .f32) (c1 : Vec Ideal S1x1 .f32) (w2 : Vec Ideal S1x8192 .f32) (c2 : Vec Ideal S1x1 .f32) : FVec Ideal S128x8192 .f32 := addf (kt2 x w0 c0 w1 c1) (scaled x (gcol (kt2 x w0 c0 w1 c1) w2 c2))
/-- After layer 3. -/
def kt4 (x : FVec Ideal S128x8192 .f32) (w0 : Vec Ideal S1x8192 .f32) (c0 : Vec Ideal S1x1 .f32) (w1 : Vec Ideal S1x8192 .f32) (c1 : Vec Ideal S1x1 .f32) (w2 : Vec Ideal S1x8192 .f32) (c2 : Vec Ideal S1x1 .f32) (w3 : Vec Ideal S1x8192 .f32) (c3 : Vec Ideal S1x1 .f32) : FVec Ideal S128x8192 .f32 := scaled x (gcol (kt3 x w0 c0 w1 c1 w2 c2) w3 c3)

theorem kt1_row (x : FVec Ideal S128x8192 .f32) (w0 : Vec Ideal S1x8192 .f32) (c0 : Vec Ideal S1x1 .f32) (p : Fin 128) (r : Fin 8192 → EReal) (cw : Fin 4 → Fin 8192 → EReal) (cb : Fin 4 → EReal) (hr : ∀ k, x (ix2 p k) = r k) (hw0 : ∀ k, w0 (ix2 (0 : Fin 1) k) = cw 0 k) (hc0 : c0 (ix2 (0 : Fin 1) (0 : Fin 1)) = cb 0) (k : Fin 8192) : kt1 x w0 c0 (ix2 p k) = temp1 r cw cb k := by
  show x (ix2 p k) + scaled x (gcol x w0 c0) (ix2 p k) = _
  rw [scaled_apply, gcol_row x w0 c0 p r (cw 0) (cb 0) hr hw0 hc0, hr]; rfl

theorem kt2_row (x : FVec Ideal S128x8192 .f32) (w0 : Vec Ideal S1x8192 .f32) (c0 : Vec Ideal S1x1 .f32) (w1 : Vec Ideal S1x8192 .f32) (c1 : Vec Ideal S1x1 .f32) (p : Fin 128) (r : Fin 8192 → EReal) (cw : Fin 4 → Fin 8192 → EReal) (cb : Fin 4 → EReal) (hr : ∀ k, x (ix2 p k) = r k) (hw0 : ∀ k, w0 (ix2 (0 : Fin 1) k) = cw 0 k) (hc0 : c0 (ix2 (0 : Fin 1) (0 : Fin 1)) = cb 0) (hw1 : ∀ k, w1 (ix2 (0 : Fin 1) k) = cw 1 k) (hc1 : c1 (ix2 (0 : Fin 1) (0 : Fin 1)) = cb 1) (k : Fin 8192) : kt2 x w0 c0 w1 c1 (ix2 p k) = temp2 r cw cb k := by
  show scaled x (gcol (kt1 x w0 c0) w1 c1) (ix2 p k) = _
  rw [scaled_apply, gcol_row (kt1 x w0 c0) w1 c1 p (temp1 r cw cb) (cw 1) (cb 1) (kt1_row x w0 c0 p r cw cb hr hw0 hc0) hw1 hc1, hr]; rfl

theorem kt3_row (x : FVec Ideal S128x8192 .f32) (w0 : Vec Ideal S1x8192 .f32) (c0 : Vec Ideal S1x1 .f32) (w1 : Vec Ideal S1x8192 .f32) (c1 : Vec Ideal S1x1 .f32) (w2 : Vec Ideal S1x8192 .f32) (c2 : Vec Ideal S1x1 .f32) (p : Fin 128) (r : Fin 8192 → EReal) (cw : Fin 4 → Fin 8192 → EReal) (cb : Fin 4 → EReal) (hr : ∀ k, x (ix2 p k) = r k) (hw0 : ∀ k, w0 (ix2 (0 : Fin 1) k) = cw 0 k) (hc0 : c0 (ix2 (0 : Fin 1) (0 : Fin 1)) = cb 0) (hw1 : ∀ k, w1 (ix2 (0 : Fin 1) k) = cw 1 k) (hc1 : c1 (ix2 (0 : Fin 1) (0 : Fin 1)) = cb 1) (hw2 : ∀ k, w2 (ix2 (0 : Fin 1) k) = cw 2 k) (hc2 : c2 (ix2 (0 : Fin 1) (0 : Fin 1)) = cb 2) (k : Fin 8192) : kt3 x w0 c0 w1 c1 w2 c2 (ix2 p k) = temp3 r cw cb k := by
  show kt2 x w0 c0 w1 c1 (ix2 p k) + scaled x (gcol (kt2 x w0 c0 w1 c1) w2 c2) (ix2 p k) = _
  rw [scaled_apply, gcol_row (kt2 x w0 c0 w1 c1) w2 c2 p (temp2 r cw cb) (cw 2) (cb 2) (kt2_row x w0 c0 w1 c1 p r cw cb hr hw0 hc0 hw1 hc1) hw2 hc2,
    kt2_row x w0 c0 w1 c1 p r cw cb hr hw0 hc0 hw1 hc1, hr]; rfl

theorem kt4_row (x : FVec Ideal S128x8192 .f32) (w0 : Vec Ideal S1x8192 .f32) (c0 : Vec Ideal S1x1 .f32) (w1 : Vec Ideal S1x8192 .f32) (c1 : Vec Ideal S1x1 .f32) (w2 : Vec Ideal S1x8192 .f32) (c2 : Vec Ideal S1x1 .f32) (w3 : Vec Ideal S1x8192 .f32) (c3 : Vec Ideal S1x1 .f32) (p : Fin 128) (r : Fin 8192 → EReal) (cw : Fin 4 → Fin 8192 → EReal) (cb : Fin 4 → EReal) (hr : ∀ k, x (ix2 p k) = r k) (hw0 : ∀ k, w0 (ix2 (0 : Fin 1) k) = cw 0 k) (hc0 : c0 (ix2 (0 : Fin 1) (0 : Fin 1)) = cb 0) (hw1 : ∀ k, w1 (ix2 (0 : Fin 1) k) = cw 1 k) (hc1 : c1 (ix2 (0 : Fin 1) (0 : Fin 1)) = cb 1) (hw2 : ∀ k, w2 (ix2 (0 : Fin 1) k) = cw 2 k) (hc2 : c2 (ix2 (0 : Fin 1) (0 : Fin 1)) = cb 2) (hw3 : ∀ k, w3 (ix2 (0 : Fin 1) k) = cw 3 k) (hc3 : c3 (ix2 (0 : Fin 1) (0 : Fin 1)) = cb 3) (k : Fin 8192) : kt4 x w0 c0 w1 c1 w2 c2 w3 c3 (ix2 p k) = temp4 r cw cb k := by
  show scaled x (gcol (kt3 x w0 c0 w1 c1 w2 c2) w3 c3) (ix2 p k) = _
  rw [scaled_apply, gcol_row (kt3 x w0 c0 w1 c1 w2 c2) w3 c3 p (temp3 r cw cb) (cw 3) (cb 3) (kt3_row x w0 c0 w1 c1 w2 c2 p r cw cb hr hw0 hc0 hw1 hc1 hw2 hc2) hw3 hc3, hr]; rfl

/-! ## The two products into the zero accumulator, at an entry -/

theorem pT_l0 (i : S128x32.Idx) (q : dot_S128x8192_S32x8192_S128x32_1_1_0_0_n_n.contr.Idx) : (dot_S128x8192_S32x8192_S128x32_1_1_0_0_n_n.lhsIdx i q 0).val = (i 0).val := by
  unfold DotDims.lhsIdx
  rw [dif_neg (show ¬(0 : Fin S128x8192.rank) ∈ dot_S128x8192_S32x8192_S128x32_1_1_0_0_n_n.lhsBatch by decide), dif_pos (show (0 : Fin S128x8192.rank) ∈ dot_S128x8192_S32x8192_S128x32_1_1_0_0_n_n.lhsNonContracting by decide)]
  rfl
theorem pT_l1 (i : S128x32.Idx) (q : dot_S128x8192_S32x8192_S128x32_1_1_0_0_n_n.contr.Idx) : (dot_S128x8192_S32x8192_S128x32_1_1_0_0_n_n.lhsIdx i q 1).val = (q ⟨0, by decide⟩).val :=
  dot_S128x8192_S32x8192_S128x32_1_1_0_0_n_n.lhsIdx_val_of_single rfl i q
theorem pT_rn (i : S128x32.Idx) (q : dot_S128x8192_S32x8192_S128x32_1_1_0_0_n_n.contr.Idx) : (dot_S128x8192_S32x8192_S128x32_1_1_0_0_n_n.rhsIdx i q 0).val = (i 1).val := by
  unfold DotDims.rhsIdx
  rw [dif_neg (show ¬(0 : Fin S32x8192.rank) ∈ dot_S128x8192_S32x8192_S128x32_1_1_0_0_n_n.rhsBatch by decide), dif_pos (show (0 : Fin S32x8192.rank) ∈ dot_S128x8192_S32x8192_S128x32_1_1_0_0_n_n.rhsNonContracting by decide)]
  rfl
theorem pT_rc (i : S128x32.Idx) (q : dot_S128x8192_S32x8192_S128x32_1_1_0_0_n_n.contr.Idx) : (dot_S128x8192_S32x8192_S128x32_1_1_0_0_n_n.rhsIdx i q 1).val = (q ⟨0, by decide⟩).val :=
  dot_S128x8192_S32x8192_S128x32_1_1_0_0_n_n.rhsIdx_val_of_single rfl i q

/-- The first product contracts the lanes of BOTH operands (the weight matrix is held transposed): entry (p, n) is
    Σ_k lhs (p, k) · rhs (n, k), whatever formats the operands are typed at. -/
theorem prodT (lhs : FVec Ideal S128x8192 .bf16) (rhs : FVec Ideal S32x8192 .bf16) (p : Fin 128) (n : Fin 32) :
    matmul dot_S128x8192_S32x8192_S128x32_1_1_0_0_n_n none lhs rhs (constant S128x32 .f32 0x00000000#32) (ix2 p n) = ∑ k : Fin 8192, lhs (ix2 p k) * rhs (ix2 n k) := by
  refine Cert.AttnRead.matmul_zero_single_apply dot_S128x8192_S32x8192_S128x32_1_1_0_0_n_n none rfl rfl lhs rhs (ix2 p n) (fun k => ix2 p k) (fun k => ix2 n k) (fun k => ?_) (fun k => ?_)
  · have hk := contrEquiv1_symm_val dot_S128x8192_S32x8192_S128x32_1_1_0_0_n_n 8192 rfl rfl k
    refine funext fun a => Fin.ext ?_
    match a with
    | ⟨0, _⟩ => exact pT_l0 _ _
    | ⟨1, _⟩ => exact (pT_l1 _ _).trans hk
  · have hk := contrEquiv1_symm_val dot_S128x8192_S32x8192_S128x32_1_1_0_0_n_n 8192 rfl rfl k
    refine funext fun a => Fin.ext ?_
    match a with
    | ⟨0, _⟩ => exact pT_rn _ _
    | ⟨1, _⟩ => exact (pT_rc _ _).trans hk

theorem pN_l0 (i : S128x16.Idx) (q : dot_S128x32_S32x16_S128x16_1_0_0_1_n_n.contr.Idx) : (dot_S128x32_S32x16_S128x16_1_0_0_1_n_n.lhsIdx i q 0).val = (i 0).val := by
  unfold DotDims.lhsIdx
  rw [dif_neg (show ¬(0 : Fin S128x32.rank) ∈ dot_S128x32_S32x16_S128x16_1_0_0_1_n_n.lhsBatch by decide), dif_pos (show (0 : Fin S128x32.rank) ∈ dot_S128x32_S32x16_S128x16_1_0_0_1_n_n.lhsNonContracting by decide)]
  rfl
theorem pN_l1 (i : S128x16.Idx) (q : dot_S128x32_S32x16_S128x16_1_0_0_1_n_n.contr.Idx) : (dot_S128x32_S32x16_S128x16_1_0_0_1_n_n.lhsIdx i q 1).val = (q ⟨0, by decide⟩).val :=
  dot_S128x32_S32x16_S128x16_1_0_0_1_n_n.lhsIdx_val_of_single rfl i q
theorem pN_rn (i : S128x16.Idx) (q : dot_S128x32_S32x16_S128x16_1_0_0_1_n_n.contr.Idx) : (dot_S128x32_S32x16_S128x16_1_0_0_1_n_n.rhsIdx i q 1).val = (i 1).val := by
  unfold DotDims.rhsIdx
  rw [dif_neg (show ¬(1 : Fin S32x16.rank) ∈ dot_S128x32_S32x16_S128x16_1_0_0_1_n_n.rhsBatch by decide), dif_pos (show (1 : Fin S32x16.rank) ∈ dot_S128x32_S32x16_S128x16_1_0_0_1_n_n.rhsNonContracting by decide)]
  rfl
theorem pN_rc (i : S128x16.Idx) (q : dot_S128x32_S32x16_S128x16_1_0_0_1_n_n.contr.Idx) : (dot_S128x32_S32x16_S128x16_1_0_0_1_n_n.rhsIdx i q 0).val = (q ⟨0, by decide⟩).val :=
  dot_S128x32_S32x16_S128x16_1_0_0_1_n_n.rhsIdx_val_of_single rfl i q

/-- The second product is the plain one: entry (p, j) is Σ_n lhs (p, n) · rhs (n, j). -/
theorem prodN (lhs : FVec Ideal S128x32 .bf16) (rhs : FVec Ideal S32x16 .bf16) (p : Fin 128) (j : Fin 16) :
    matmul dot_S128x32_S32x16_S128x16_1_0_0_1_n_n none lhs rhs (constant S128x16 .f32 0x00000000#32) (ix2 p j) = ∑ n : Fin 32, lhs (ix2 p n) * rhs (ix2 n j) := by
  refine Cert.AttnRead.matmul_zero_single_apply dot_S128x32_S32x16_S128x16_1_0_0_1_n_n none rfl rfl lhs rhs (ix2 p j) (fun n => ix2 p n) (fun n => ix2 n j) (fun n => ?_) (fun n => ?_)
  · have hk := contrEquiv1_symm_val dot_S128x32_S32x16_S128x16_1_0_0_1_n_n 32 rfl rfl n
    refine funext fun a => Fin.ext ?_
    match a with
    | ⟨0, _⟩ => exact pN_l0 _ _
    | ⟨1, _⟩ => exact (pN_l1 _ _).trans hk
  · have hk := contrEquiv1_symm_val dot_S128x32_S32x16_S128x16_1_0_0_1_n_n 32 rfl rfl n
    refine funext fun a => Fin.ext ?_
    match a with
    | ⟨0, _⟩ => exact (pN_rc _ _).trans hk
    | ⟨1, _⟩ => exact pN_rn _ _

/-! ## The dense layers, in the body's spelling -/

/-- The first dense layer of the block t: product with the transposed weight matrix, bias row, rectifier. -/
def kdense1 (t : FVec Ideal S128x8192 .f32) (Wt : Vec Ideal S32x8192 .f32) (B : Vec Ideal S1x32 .f32) : FVec Ideal S128x32 .f32 :=
  maximumf (addf (matmul dot_S128x8192_S32x8192_S128x32_1_1_0_0_n_n none (truncf .bf16 t bitsLt_bf16_f32) (truncf .bf16 (shapeCast S32x8192 Wt shapeCasts_S32x8192_S32x8192) bitsLt_bf16_f32) (constant S128x32 .f32 0x00000000#32))
    (broadcastTo S128x32 (shapeCast S1x32 B shapeCasts_S1x32_S1x32) broadcasts_S1x32_S128x32)) (broadcast S128x32 (Scalar.ofBits (F := Ideal) .f32 0x00000000#32))

theorem kdense1_apply (t : FVec Ideal S128x8192 .f32) (Wt : Vec Ideal S32x8192 .f32) (B : Vec Ideal S1x32 .f32) (p : Fin 128) (n : Fin 32) :
    kdense1 t Wt B (ix2 p n) = dense (fun d => t (ix2 p d)) (fun d n => Wt (ix2 n d)) (fun n => B (ix2 (0 : Fin 1) n)) n := by
  refine (congrArg₂ (fun a b : EReal => max (a + b) (Ideal.ofBits .f32 0x00000000#32))
    (prodT (truncf .bf16 t bitsLt_bf16_f32) (truncf .bf16 (shapeCast S32x8192 Wt shapeCasts_S32x8192_S32x8192) bitsLt_bf16_f32) p n) (rowRep32 B p n)).trans ?_
  rw [shapeCast_self Wt]
  rfl

/-- The second dense layer. -/
def kdense2 (h : FVec Ideal S128x32 .f32) (W : Vec Ideal S32x16 .f32) (B : Vec Ideal S1x16 .f32) : FVec Ideal S128x16 .f32 :=
  maximumf (addf (matmul dot_S128x32_S32x16_S128x16_1_0_0_1_n_n none (truncf .bf16 h bitsLt_bf16_f32) (truncf .bf16 W bitsLt_bf16_f32) (constant S128x16 .f32 0x00000000#32))
    (broadcastTo S128x16 (shapeCast S1x16 B shapeCasts_S1x16_S1x16) broadcasts_S1x16_S128x16)) (broadcast S128x16 (Scalar.ofBits (F := Ideal) .f32 0x00000000#32))

theorem kdense2_apply (h : FVec Ideal S128x32 .f32) (W : Vec Ideal S32x16 .f32) (B : Vec Ideal S1x16 .f32) (p : Fin 128) (j : Fin 16) :
    kdense2 h W B (ix2 p j) = dense (fun n => h (ix2 p n)) (fun n j => W (ix2 n j)) (fun j => B (ix2 (0 : Fin 1) j)) j :=
  congrArg₂ (fun a b : EReal => max (a + b) (Ideal.ofBits .f32 0x00000000#32))
    (prodN (truncf .bf16 h bitsLt_bf16_f32) (truncf .bf16 W bitsLt_bf16_f32) p j) (rowRep16 B p j)

/-! ## The body's stored column -/

/-- The body's chain of named values, up to the second dense layer, is the composition above: every name unfolds to
    the same tree of vector operations. -/
theorem body_eq (x : Vec Ideal S128x8192 .f32) (w0 : Vec Ideal S1x8192 .f32) (c0 : Vec Ideal S1x1 .f32) (w1 : Vec Ideal S1x8192 .f32) (c1 : Vec Ideal S1x1 .f32) (w2 : Vec Ideal S1x8192 .f32) (c2 : Vec Ideal S1x1 .f32) (w3 : Vec Ideal S1x8192 .f32) (c3 : Vec Ideal S1x1 .f32) (Wt : Vec Ideal S32x8192 .f32) (B1 : Vec Ideal S1x32 .f32)
    (W2 : Vec Ideal S32x16 .f32) (B2 : Vec Ideal S1x16 .f32) :
    k0_pay6 (k0_pay2 x) (k0_pay3 x w0 c0 w1 c1) (k0_pay4 x w0 c0 w1 c1 w2) (k0_pay5 c2) w3 c3 Wt B1 W2 B2
      = kdense2 (kdense1 (kt4 (k0_pay2 x) w0 c0 w1 c1 w2 c2 w3 c3) Wt B1) W2 B2 := rfl

/-- Both dense layers at row p, from the row of the block they are fed. -/
theorem kdense_row (t : FVec Ideal S128x8192 .f32) (Wt : Vec Ideal S32x8192 .f32) (B1 : Vec Ideal S1x32 .f32) (W2 : Vec Ideal S32x16 .f32)
    (B2 : Vec Ideal S1x16 .f32) (p : Fin 128) (tr : Fin 8192 → EReal) (w1 : Fin 8192 → Fin 32 → EReal) (bb1 : Fin 32 → EReal)
    (w2 : Fin 32 → Fin 16 → EReal) (bb2 : Fin 16 → EReal) (ht : ∀ k, t (ix2 p k) = tr k) (hw1 : ∀ d n, Wt (ix2 n d) = w1 d n)
    (hb1 : ∀ n, B1 (ix2 (0 : Fin 1) n) = bb1 n) (hw2 : ∀ n j, W2 (ix2 n j) = w2 n j) (hb2 : ∀ j, B2 (ix2 (0 : Fin 1) j) = bb2 j) (j : Fin 16) :
    kdense2 (kdense1 t Wt B1) W2 B2 (ix2 p j) = dense (dense tr w1 bb1) w2 bb2 j := by
  have h1 : ∀ n : Fin 32, kdense1 t Wt B1 (ix2 p n) = dense tr w1 bb1 n := fun n => by
    rw [kdense1_apply, show (fun d => t (ix2 p d)) = tr from funext ht,
      show (fun (d : Fin 8192) (n : Fin 32) => Wt (ix2 n d)) = w1 from funext fun d => funext fun n => hw1 d n,
      show (fun n : Fin 32 => B1 (ix2 (0 : Fin 1) n)) = bb1 from funext hb1]
  rw [kdense2_apply, show (fun n => kdense1 t Wt B1 (ix2 p n)) = dense tr w1 bb1 from funext h1,
    show (fun (n : Fin 32) (j : Fin 16) => W2 (ix2 n j)) = w2 from funext fun n => funext fun j => hw2 n j,
    show (fun j : Fin 16 => B2 (ix2 (0 : Fin 1) j)) = bb2 from funext hb2]

/-- The output stage at row p: the logistic function of the two lane sums and the bias. -/
theorem pay1_apply (v1 : FVec Ideal S128x8192 .f32) (v80 : FVec Ideal S128x16 .f32) (v82 : FVec Ideal S1x16 .f32) (V : Vec Ideal S1x8192 .f32)
    (C : Vec Ideal S1x1 .f32) (p : Fin 128) (z : Fin 1) :
    k0_pay1 v1 v80 v82 V C (ix2 p z)
      = Ideal.logistic (((∑ j : Fin 16, v80 (ix2 p j) * v82 (ix2 (0 : Fin 1) j)) + ∑ d : Fin 8192, v1 (ix2 p d) * V (ix2 (0 : Fin 1) d))
          + C (ix2 (0 : Fin 1) (0 : Fin 1))) := by
  refine congrArg Ideal.logistic (congrArg₂ (fun a b : EReal => a + b)
    (congrArg₂ (fun a b : EReal => a + b) ((colSum16 _ p z).trans ?_) ((colSum _ p z).trans ?_)) (scalarRep C p z))
  · exact Finset.sum_congr rfl fun j _ => congrArg (fun y : EReal => v80 (ix2 p j) * y) (broadcastTo_1b_ab_apply v82 _ p j)
  · exact Finset.sum_congr rfl fun d _ => congrArg (fun y : EReal => v1 (ix2 p d) * y) (rowRepSelf V p d)

/-- WHAT THE BODY LEAVES IN THE OUTPUT BLOCK, at row p: the network's output for the row p of the embedding block,
    for any blocks whose entries are the network's parameters. -/
theorem block_apply (b0 : Vec Ideal S128x8192 .f32) (b1 : Vec Ideal S4x8192 .f32) (b2 : Vec Ideal S4x1 .f32) (b3 : Vec Ideal S32x8192 .f32)
    (b4 : Vec Ideal S1x32 .f32) (b5 : Vec Ideal S32x16 .f32) (b6 b7 : Vec Ideal S1x16 .f32) (b8 : Vec Ideal S1x8192 .f32) (b9 : Vec Ideal S1x1 .f32)
    (p : Fin 128) (z : Fin 1) (r : Fin 8192 → EReal) (cw : Fin 4 → Fin 8192 → EReal) (cb : Fin 4 → EReal) (w1 : Fin 8192 → Fin 32 → EReal)
    (bb1 : Fin 32 → EReal) (w2 : Fin 32 → Fin 16 → EReal) (bb2 : Fin 16 → EReal) (u : Fin 16 → EReal) (v : Fin 8192 → EReal) (c : EReal)
    (hr : ∀ d, b0 (ix2 p d) = r d) (hcw : ∀ l d, b1 (ix2 l d) = cw l d) (hcb : ∀ l, b2 (ix2 l (0 : Fin 1)) = cb l)
    (hw1 : ∀ d n, b3 (ix2 n d) = w1 d n) (hb1 : ∀ n, b4 (ix2 (0 : Fin 1) n) = bb1 n) (hw2 : ∀ n j, b5 (ix2 n j) = w2 n j)
    (hb2 : ∀ j, b6 (ix2 (0 : Fin 1) j) = bb2 j) (hu : ∀ j, b7 (ix2 (0 : Fin 1) j) = u j) (hv : ∀ d, b8 (ix2 (0 : Fin 1) d) = v d)
    (hc : b9 (ix2 (0 : Fin 1) (0 : Fin 1)) = c) :
    out0_10 b0 b1 b2 b3 b4 b5 b6 b7 b8 b9 (ix2 p z) = rowOut r cw cb w1 bb1 w2 bb2 u v c := by
  have hz : (![0, 0] : Fin 2 → ℕ) = fun _ => 0 := funext fun a => by match a with | ⟨0, _⟩ => rfl | ⟨1, _⟩ => rfl
  have l0 : View.ld b0 r0_0 = b0 := View.ld_unit_zero hz _ b0
  have l3 : View.ld b3 r0_9 = b3 := View.ld_unit_zero hz _ b3
  have l4 : View.ld b4 r0_10 = b4 := View.ld_unit_zero hz _ b4
  have l5 : View.ld b5 r0_11 = b5 := View.ld_unit_zero hz _ b5
  have l6 : View.ld b6 r0_12 = b6 := View.ld_unit_zero hz _ b6
  have l7 : View.ld b7 r0_12 = b7 := View.ld_unit_zero hz _ b7
  have l8 : View.ld b8 r0_13 = b8 := View.ld_unit_zero hz _ b8
  have l9 : View.ld b9 r0_14 = b9 := View.ld_unit_zero hz _ b9
  have q0 : ∀ k : Fin 8192, View.ld b1 r0_1 (ix2 (0 : Fin 1) k) = cw 0 k := fun k =>
    (congrArg b1 (funext fun a => Fin.ext (by match a with | ⟨0, _⟩ => rfl | ⟨1, _⟩ => (show 0 + 1 * k.val = k.val; omega)))).trans (hcw 0 k)
  have q1 : ∀ k : Fin 8192, View.ld b1 r0_3 (ix2 (0 : Fin 1) k) = cw 1 k := fun k =>
    (congrArg b1 (funext fun a => Fin.ext (by match a with | ⟨0, _⟩ => rfl | ⟨1, _⟩ => (show 0 + 1 * k.val = k.val; omega)))).trans (hcw 1 k)
  have q2 : ∀ k : Fin 8192, View.ld b1 r0_5 (ix2 (0 : Fin 1) k) = cw 2 k := fun k =>
    (congrArg b1 (funext fun a => Fin.ext (by match a with | ⟨0, _⟩ => rfl | ⟨1, _⟩ => (show 0 + 1 * k.val = k.val; omega)))).trans (hcw 2 k)
  have q3 : ∀ k : Fin 8192, View.ld b1 r0_7 (ix2 (0 : Fin 1) k) = cw 3 k := fun k =>
    (congrArg b1 (funext fun a => Fin.ext (by match a with | ⟨0, _⟩ => rfl | ⟨1, _⟩ => (show 0 + 1 * k.val = k.val; omega)))).trans (hcw 3 k)
  have s0 : View.ld b2 r0_2 (ix2 (0 : Fin 1) (0 : Fin 1)) = cb 0 :=
    (congrArg b2 (funext fun a => Fin.ext (by match a with | ⟨0, _⟩ => rfl | ⟨1, _⟩ => rfl))).trans (hcb 0)
  have s1 : View.ld b2 r0_4 (ix2 (0 : Fin 1) (0 : Fin 1)) = cb 1 :=
    (congrArg b2 (funext fun a => Fin.ext (by match a with | ⟨0, _⟩ => rfl | ⟨1, _⟩ => rfl))).trans (hcb 1)
  have s2 : View.ld b2 r0_6 (ix2 (0 : Fin 1) (0 : Fin 1)) = cb 2 :=
    (congrArg b2 (funext fun a => Fin.ext (by match a with | ⟨0, _⟩ => rfl | ⟨1, _⟩ => rfl))).trans (hcb 2)
  have s3 : View.ld b2 r0_8 (ix2 (0 : Fin 1) (0 : Fin 1)) = cb 3 :=
    (congrArg b2 (funext fun a => Fin.ext (by match a with | ⟨0, _⟩ => rfl | ⟨1, _⟩ => rfl))).trans (hcb 3)
  unfold out0_10
  rw [View.canon_unit_zero hz, l0, l3, l4, l5, l6, l7, l8, l9, body_eq]
  refine (pay1_apply _ _ _ _ _ p z).trans ?_
  have e2 : k0_pay2 b0 = b0 := shapeCast_self b0 _
  have e7 : k0_pay7 b7 = b7 := shapeCast_self b7 _
  have R0 : ∀ k, k0_pay2 b0 (ix2 p k) = r k := fun k => (congrFun e2 _).trans (hr k)
  have R4 := kt4_row (k0_pay2 b0) (View.ld b1 r0_1) (View.ld b2 r0_2) (View.ld b1 r0_3) (View.ld b2 r0_4) (View.ld b1 r0_5) (View.ld b2 r0_6)
    (View.ld b1 r0_7) (View.ld b2 r0_8) p r cw cb R0 q0 s0 q1 s1 q2 s2 q3 s3
  unfold rowOut
  refine congrArg Ideal.logistic (congrArg₂ (fun a b : EReal => a + b)
    (congrArg₂ (fun a b : EReal => a + b) (Finset.sum_congr rfl fun j _ => ?_) (Finset.sum_congr rfl fun d _ => ?_)) hc)
  · rw [kdense_row _ b3 b4 b5 b6 p (temp4 r cw cb) w1 bb1 w2 bb2 R4 hw1 hb1 hw2 hb2 j, e7, hu]
  · rw [R0, hv]

end Cert.DeepCross.Kern

end
-- ==== Proof.KernelArray.lean ====
/-
  From the blocks to the whole result array.

  The call's grid has 64 points; point t stages rows 128 t … 128 t + 127 of the embedding matrix and of the result column,
  and every parameter whole.  The parameters reach the call re-laid by the surrounding program: the cross weights
  [4, 8192, 1] as [4, 8192], the cross biases [4] as a column, the first dense weight matrix transposed, the bias vectors as
  single rows, the final weight column cut after 16 entries and each part laid as a row.  Read at an entry, each is the
  reading of the argument the specification uses.  So what point t writes back is block t of the specification's result
  array; the 64 blocks cover the column, and the array after the run is that array.
-/
import proofs.«102186_j43224550867491_1_alg».proof.Proof.KernelRow
import Idealize.ShloMosaic.Lib.Pipeline.Value
import Idealize.ShloMosaic.Lib.StableHlo.Run

set_option maxRecDepth 16384

noncomputable section

open scoped BigOperators

namespace Cert.DeepCross.Kern

open Cert.KernelIdeal Cert.KernelIdeal.Gen Idealize.ShloMosaic Idealize.ShloMosaic.TcCoe Idealize.ShloMosaic.ValueIdx Idealize.SL.Sem
open Idealize.ShloMosaic.Pipeline (Dat)
open Cert.DeepCross

variable (m : (ℓ : Loc nD τ sig) → Buf (Elt Ideal) ℓ) (ρ : Dev nD → PrngReg)

/-! ## The arrays the call finds, read at an entry -/

/-- The embedding matrix the call is given: the gathered rows, flattened.  Kept whole. -/
def embedded (c : Dev nD) : S8192x8192.Idx → EReal := V m c main_v7

theorem crossW_read (c : Dev nD) (l : Fin 4) (d : Fin 8192) : V m c main_v8 (ix2 l d) = crossW (m ((c : Thread nD τ).loc main_arg2)) l d := by
  have e : (V m c main_v8 : S4x8192.Idx → EReal) = shapeCast S4x8192 (m ((c : Thread nD τ).loc main_arg2)) shapeCasts_S4x8192x1_S4x8192 := by
    dsimp only [V, hostOps0]; after_results <;> rfl
  rw [e]
  exact shapeCast_apply _ _ _ (ix3 l d (0 : Fin 1)) (by
    rw [Shape.rowMajor_val_three, Shape.rowMajor_val_two]
    show (l.val * 8192 + d.val) * 1 + 0 = l.val * 8192 + d.val; omega)

theorem crossB_read (c : Dev nD) (l : Fin 4) : V m c main_v9 (ix2 l (0 : Fin 1)) = crossB (m ((c : Thread nD τ).loc main_arg3)) l := by
  have e : (V m c main_v9 : S4x1.Idx → EReal) = shapeCast S4x1 (m ((c : Thread nD τ).loc main_arg3)) shapeCasts_S4_S4x1 := by
    dsimp only [V, hostOps0]; after_results <;> rfl
  rw [e]
  exact Cert.VecRead.shapeCast_col_apply _ _ l 0

theorem w1_read (c : Dev nD) (d : Fin 8192) (n : Fin 32) : V m c main_v10 (ix2 n d) = mat (m ((c : Thread nD τ).loc main_arg4)) d n := by
  have e : (V m c main_v10 : S32x8192.Idx → EReal) = transpose S32x8192 [1, 0] (m ((c : Thread nD τ).loc main_arg4)) transposes_S8192x32_S32x8192_1_0 := by
    dsimp only [V, hostOps0]; after_results <;> rfl
  rw [e]
  exact transpose_ix2_apply _ _ n d

theorem b1_read (c : Dev nD) (n : Fin 32) : V m c main_v11 (ix2 (0 : Fin 1) n) = vec (m ((c : Thread nD τ).loc main_arg5)) n := by
  have e : (V m c main_v11 : S1x32.Idx → EReal) = shapeCast S1x32 (m ((c : Thread nD τ).loc main_arg5)) shapeCasts_S32_S1x32 := by
    dsimp only [V, hostOps0]; after_results <;> rfl
  rw [e]
  exact shapeCast_a_1a_apply _ _ 0 n

theorem w2_read (c : Dev nD) (n : Fin 32) (j : Fin 16) : V m c main_arg6 (ix2 n j) = mat (m ((c : Thread nD τ).loc main_arg6)) n j := by
  rw [V_main_arg6]; rfl

theorem b2_read (c : Dev nD) (j : Fin 16) : V m c main_v12 (ix2 (0 : Fin 1) j) = vec (m ((c : Thread nD τ).loc main_arg7)) j := by
  have e : (V m c main_v12 : S1x16.Idx → EReal) = shapeCast S1x16 (m ((c : Thread nD τ).loc main_arg7)) shapeCasts_S16_S1x16 := by
    dsimp only [V, hostOps0]; after_results <;> rfl
  rw [e]
  exact shapeCast_a_1a_apply _ _ 0 j

theorem head_read (c : Dev nD) (j : Fin 16) : V m c main_v14 (ix2 (0 : Fin 1) j) = headW (m ((c : Thread nD τ).loc main_arg8)) j := by
  have e : (V m c main_v14 : S1x16.Idx → EReal)
      = shapeCast S1x16 (extractStridedSlice S16x1 ![0, 0] (m ((c : Thread nD τ).loc main_arg8)) slices_S8208x1_S16x1_0_0) shapeCasts_S16x1_S1x16 := by
    dsimp only [V, hostOps0]; after_results <;> rfl
  rw [e]
  refine (shapeCast_apply _ _ _ (ix2 j (0 : Fin 1)) (by
    rw [Shape.rowMajor_val_two, Shape.rowMajor_val_two]
    show j.val * 1 + 0 = 0 * 16 + j.val; omega)).trans ?_
  exact Cert.VecRead.slice2_apply 0 0 _ _ j 0 (⟨j.val, by omega⟩ : Fin 8208) 0 (by show j.val = 0 + j.val; omega) rfl

theorem tail_read (c : Dev nD) (d : Fin 8192) : V m c main_v16 (ix2 (0 : Fin 1) d) = tailW (m ((c : Thread nD τ).loc main_arg8)) d := by
  have e : (V m c main_v16 : S1x8192.Idx → EReal)
      = shapeCast S1x8192 (extractStridedSlice S8192x1 ![16, 0] (m ((c : Thread nD τ).loc main_arg8)) slices_S8208x1_S8192x1_16_0) shapeCasts_S8192x1_S1x8192 := by
    dsimp only [V, hostOps0]; after_results <;> rfl
  rw [e]
  refine (shapeCast_apply _ _ _ (ix2 d (0 : Fin 1)) (by
    rw [Shape.rowMajor_val_two, Shape.rowMajor_val_two]
    show d.val * 1 + 0 = 0 * 8192 + d.val; omega)).trans ?_
  exact Cert.VecRead.slice2_apply 16 0 _ _ d 0 (⟨16 + d.val, by omega⟩ : Fin 8208) 0 rfl rfl

theorem bf_read (c : Dev nD) : V m c main_v17 (ix2 (0 : Fin 1) (0 : Fin 1)) = (m ((c : Thread nD τ).loc main_arg9)) (ix1 (0 : Fin 1)) := by
  have e : (V m c main_v17 : S1x1.Idx → EReal) = shapeCast S1x1 (m ((c : Thread nD τ).loc main_arg9)) shapeCasts_S1_S1x1 := by
    dsimp only [V, hostOps0]; after_results <;> rfl
  rw [e]
  exact shapeCast_a_1a_apply _ _ 0 0

/-! ## The windows' blocks -/

/-- The index maps of the embedding matrix's window and of the result's, over the 64 points: block t. -/
theorem idx_w0 : ∀ t : Fin cfg0.N, win0_0.index t (0 : Fin 2) = t.val ∧ win0_0.index t (1 : Fin 2) = 0 :=
  (by decide +kernel : ∀ t : Fin grid0.N, _)
theorem idx_w10 : ∀ t : Fin cfg0.N, win0_10.index t (0 : Fin 2) = t.val ∧ win0_10.index t (1 : Fin 2) = 0 :=
  (by decide +kernel : ∀ t : Fin grid0.N, _)
/- The parameters' windows stay at block (0, 0): each is staged whole. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)

/-- Row p of point t's blocks is row 128 t + p of the arrays. -/
def rowOf (t : Fin cfg0.N) (p : Fin 128) : Fin 8192 :=
  ⟨t.val * 128 + p.val, by have ht : t.val < 64 := lt_of_lt_of_eq t.isLt N_0; have := p.isLt; omega⟩

theorem blk0_read (c : Dev nD) (t : Fin cfg0.N) (p : Fin 128) (d : Fin 8192) :
    iblk m c 0 t (ix2 p d) = embedded m c (ix2 (rowOf t p) d) := by
  obtain ⟨e0, e1⟩ := idx_w0 t
  show V m c main_v7 (((cfg0.win 0).blk t).view.emb (ix2 p d)) = V m c main_v7 _
  refine congrArg (V m c main_v7) (funext fun a => Fin.ext ?_)
  match a with
  | ⟨0, _⟩ => show win0_0.index t (0 : Fin 2) * 128 + 1 * p.val = t.val * 128 + p.val; rw [e0]; omega
  | ⟨1, _⟩ => show win0_0.index t (1 : Fin 2) * 8192 + 1 * d.val = d.val; rw [e1]; omega

theorem blk1_read (c : Dev nD) (t : Fin cfg0.N) (i : Fin 4) (j : Fin 8192) : iblk m c 1 t (ix2 i j) = V m c main_v8 (ix2 i j) := by
  obtain ⟨e0, e1⟩ := idx_w1 t
  show V m c main_v8 (((cfg0.win 1).blk t).view.emb (ix2 i j)) = _
  refine congrArg (V m c main_v8) (funext fun a => Fin.ext ?_)
  match a with
  | ⟨0, _⟩ => show win0_1.index t (0 : Fin 2) * 4 + 1 * i.val = i.val; rw [e0]; omega
  | ⟨1, _⟩ => show win0_1.index t (1 : Fin 2) * 8192 + 1 * j.val = j.val; rw [e1]; omega

theorem blk2_read (c : Dev nD) (t : Fin cfg0.N) (i : Fin 4) (j : Fin 1) : iblk m c 2 t (ix2 i j) = V m c main_v9 (ix2 i j) := by
  obtain ⟨e0, e1⟩ := idx_w2 t
  show V m c main_v9 (((cfg0.win 2).blk t).view.emb (ix2 i j)) = _
  refine congrArg (V m c main_v9) (funext fun a => Fin.ext ?_)
  match a with
  | ⟨0, _⟩ => show win0_2.index t (0 : Fin 2) * 4 + 1 * i.val = i.val; rw [e0]; omega
  | ⟨1, _⟩ => show win0_2.index t (1 : Fin 2) * 1 + 1 * j.val = j.val; rw [e1]; omega

theorem blk3_read (c : Dev nD) (t : Fin cfg0.N) (i : Fin 32) (j : Fin 8192) : iblk m c 3 t (ix2 i j) = V m c main_v10 (ix2 i j) := by
  obtain ⟨e0, e1⟩ := idx_w3 t
  show V m c main_v10 (((cfg0.win 3).blk t).view.emb (ix2 i j)) = _
  refine congrArg (V m c main_v10) (funext fun a => Fin.ext ?_)
  match a with
  | ⟨0, _⟩ => show win0_3.index t (0 : Fin 2) * 32 + 1 * i.val = i.val; rw [e0]; omega
  | ⟨1, _⟩ => show win0_3.index t (1 : Fin 2) * 8192 + 1 * j.val = j.val; rw [e1]; omega

theorem blk4_read (c : Dev nD) (t : Fin cfg0.N) (i : Fin 1) (j : Fin 32) : iblk m c 4 t (ix2 i j) = V m c main_v11 (ix2 i j) := by
  obtain ⟨e0, e1⟩ := idx_w4 t
  show V m c main_v11 (((cfg0.win 4).blk t).view.emb (ix2 i j)) = _
  refine congrArg (V m c main_v11) (funext fun a => Fin.ext ?_)
  match a with
  | ⟨0, _⟩ => show win0_4.index t (0 : Fin 2) * 1 + 1 * i.val = i.val; rw [e0]; omega
  | ⟨1, _⟩ => show win0_4.index t (1 : Fin 2) * 32 + 1 * j.val = j.val; rw [e1]; omega

theorem blk5_read (c : Dev nD) (t : Fin cfg0.N) (i : Fin 32) (j : Fin 16) : iblk m c 5 t (ix2 i j) = V m c main_arg6 (ix2 i j) := by
  obtain ⟨e0, e1⟩ := idx_w5 t
  show V m c main_arg6 (((cfg0.win 5).blk t).view.emb (ix2 i j)) = _
  refine congrArg (V m c main_arg6) (funext fun a => Fin.ext ?_)
  match a with
  | ⟨0, _⟩ => show win0_5.index t (0 : Fin 2) * 32 + 1 * i.val = i.val; rw [e0]; omega
  | ⟨1, _⟩ => show win0_5.index t (1 : Fin 2) * 16 + 1 * j.val = j.val; rw [e1]; omega

theorem blk6_read (c : Dev nD) (t : Fin cfg0.N) (i : Fin 1) (j : Fin 16) : iblk m c 6 t (ix2 i j) = V m c main_v12 (ix2 i j) := by
  obtain ⟨e0, e1⟩ := idx_w6 t
  show V m c main_v12 (((cfg0.win 6).blk t).view.emb (ix2 i j)) = _
  refine congrArg (V m c main_v12) (funext fun a => Fin.ext ?_)
  match a with
  | ⟨0, _⟩ => show win0_6.index t (0 : Fin 2) * 1 + 1 * i.val = i.val; rw [e0]; omega
  | ⟨1, _⟩ => show win0_6.index t (1 : Fin 2) * 16 + 1 * j.val = j.val; rw [e1]; omega

theorem blk7_read (c : Dev nD) (t : Fin cfg0.N) (i : Fin 1) (j : Fin 16) : iblk m c 7 t (ix2 i j) = V m c main_v14 (ix2 i j) := by
  obtain ⟨e0, e1⟩ := idx_w7 t
  show V m c main_v14 (((cfg0.win 7).blk t).view.emb (ix2 i j)) = _
  refine congrArg (V m c main_v14) (funext fun a => Fin.ext ?_)
  match a with
  | ⟨0, _⟩ => show win0_7.index t (0 : Fin 2) * 1 + 1 * i.val = i.val; rw [e0]; omega
  | ⟨1, _⟩ => show win0_7.index t (1 : Fin 2) * 16 + 1 * j.val = j.val; rw [e1]; omega

theorem blk8_read (c : Dev nD) (t : Fin cfg0.N) (i : Fin 1) (j : Fin 8192) : iblk m c 8 t (ix2 i j) = V m c main_v16 (ix2 i j) := by
  obtain ⟨e0, e1⟩ := idx_w8 t
  show V m c main_v16 (((cfg0.win 8).blk t).view.emb (ix2 i j)) = _
  refine congrArg (V m c main_v16) (funext fun a => Fin.ext ?_)
  match a with
  | ⟨0, _⟩ => show win0_8.index t (0 : Fin 2) * 1 + 1 * i.val = i.val; rw [e0]; omega
  | ⟨1, _⟩ => show win0_8.index t (1 : Fin 2) * 8192 + 1 * j.val = j.val; rw [e1]; omega

theorem blk9_read (c : Dev nD) (t : Fin cfg0.N) (i : Fin 1) (j : Fin 1) : iblk m c 9 t (ix2 i j) = V m c main_v17 (ix2 i j) := by
  obtain ⟨e0, e1⟩ := idx_w9 t
  show V m c main_v17 (((cfg0.win 9).blk t).view.emb (ix2 i j)) = _
  refine congrArg (V m c main_v17) (funext fun a => Fin.ext ?_)
  match a with
  | ⟨0, _⟩ => show win0_9.index t (0 : Fin 2) * 1 + 1 * i.val = i.val; rw [e0]; omega
  | ⟨1, _⟩ => show win0_9.index t (1 : Fin 2) * 1 + 1 * j.val = j.val; rw [e1]; omega

/-! ## What a point writes back, and the array after the run -/

/-- The specification's result array, of the embedding matrix the call finds and the nine parameter arguments. -/
def result (c : Dev nD) : S8192x1.Idx → EReal := outArr (embedded m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT t WRITES BACK is block t of that array. -/
theorem flushed_eq (c : Dev nD) (t : Fin cfg0.N) :
    (dats m 0 c).flushed 10 t = ((cfg0.win 10).blk t).view.read (Elt Ideal) (result m c) := by
  show (cfg0.win 10).cut (grid0.coords t) ((dats m 0 c).after 10 t) = _
  rw [after0_10]
  funext y
  obtain ⟨p, z, rfl⟩ : ∃ (p : Fin 128) (z : Fin 1), y = ix2 p z := ⟨y 0, y 1, eq_ix2 y⟩
  obtain ⟨e0, e1⟩ := idx_w10 t
  have hemb : ((cfg0.win 10).blk t).view.emb (ix2 p z) = ix2 (rowOf t p) z := by
    refine funext fun a => Fin.ext ?_
    match a with
    | ⟨0, _⟩ => show win0_10.index t (0 : Fin 2) * 128 + 1 * p.val = t.val * 128 + p.val; rw [e0]; omega
    | ⟨1, _⟩ => show win0_10.index t (1 : Fin 2) * 1 + 1 * z.val = z.val; rw [e1]; omega
  show out0_10 (iblk m c 0 t) (iblk m c 1 t) (iblk m c 2 t) (iblk m c 3 t) (iblk m c 4 t) (iblk m c 5 t) (iblk m c 6 t) (iblk m c 7 t) (iblk m c 8 t) (iblk m c 9 t) (ix2 p z) = result m c (((cfg0.win 10).blk t).view.emb (ix2 p z))
  rw [hemb]
  show _ = outArr (embedded m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (rowOf t p) z)
  rw [outArr_apply]
  exact block_apply (iblk m c 0 t) (iblk m c 1 t) (iblk m c 2 t) (iblk m c 3 t) (iblk m c 4 t) (iblk m c 5 t) (iblk m c 6 t) (iblk m c 7 t) (iblk m c 8 t) (iblk m c 9 t) p z
    (erow (embedded m c) (rowOf t p)) (crossW (m ((c : Thread nD τ).loc main_arg2))) (crossB (m ((c : Thread nD τ).loc main_arg3))) (mat (m ((c : Thread nD τ).loc main_arg4))) (vec (m ((c : Thread nD τ).loc main_arg5))) (mat (m ((c : Thread nD τ).loc main_arg6))) (vec (m ((c : Thread nD τ).loc main_arg7)))
    (headW (m ((c : Thread nD τ).loc main_arg8))) (tailW (m ((c : Thread nD τ).loc main_arg8))) ((m ((c : Thread nD τ).loc main_arg9)) (ix1 (0 : Fin 1)))
    (fun d => blk0_read m c t p d)
    (fun l d => (blk1_read m c t l d).trans (crossW_read m c l d))
    (fun l => (blk2_read m c t l 0).trans (crossB_read m c l))
    (fun d n => (blk3_read m c t n d).trans (w1_read m c d n))
    (fun n => (blk4_read m c t 0 n).trans (b1_read m c n))
    (fun n j => (blk5_read m c t n j).trans (w2_read m c n j))
    (fun j => (blk6_read m c t 0 j).trans (b2_read m c j))
    (fun j => (blk7_read m c t 0 j).trans (head_read m c j))
    (fun d => (blk8_read m c t 0 d).trans (tail_read m c d))
    ((blk9_read m c t 0 0).trans (bf_read m c))

/-- An index of the result column is in point t's block iff each coordinate is in the block's range on its axis. -/
theorem mem_blk (t : Fin cfg0.N) (i : S8192x1.Idx) :
    i ∈ ((cfg0.win 10).blk t).view.set ↔ ∀ a : Fin 2, win0_10.index t a * S128x1.size a ≤ (i a).val ∧ (i a).val < win0_10.index t a * S128x1.size a + S128x1.size a := by
  show i ∈ ((View.whole main_v18).slice (win0_10.rect t)).set ↔ _
  rw [View.set_slice_whole, Rect.mem_set_unit]
  exact Iff.rfl

/-- The 64 blocks cover the column: row i is in block i / 128. -/
theorem cover (i : S8192x1.Idx) : ∃ t : Fin cfg0.N, (cfg0.win 10).flush t = true ∧ i ∈ ((cfg0.win 10).blk t).view.set := by
  have hi0 : (i 0).val < 8192 := (i 0).isLt
  have hi1 : (i 1).val < 1 := (i 1).isLt
  have hN : (i 0).val / 128 < cfg0.N := lt_of_lt_of_eq (by omega : (i 0).val / 128 < 64) N_0.symm
  obtain ⟨e0, e1⟩ := idx_w10 ⟨(i 0).val / 128, hN⟩
  refine ⟨⟨(i 0).val / 128, hN⟩, flush0_10 _, ?_⟩
  rw [mem_blk]
  intro a
  match a with
  | ⟨0, _⟩ =>
    show win0_10.index ⟨(i 0).val / 128, hN⟩ (0 : Fin 2) * 128 ≤ (i 0).val ∧ (i 0).val < win0_10.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_10.index ⟨(i 0).val / 128, hN⟩ (1 : Fin 2) * 1 ≤ (i 1).val ∧ (i 1).val < win0_10.index ⟨(i 0).val / 128, hN⟩ (1 : Fin 2) * 1 + 1
    rw [e1]; omega

/-- THE RESULT ARRAY after the run is the specification's. -/
theorem final (c : Dev nD) : (dats m 0 c).arrAt 10 cfg0.N = result m c :=
  (dats m 0 c).arrAt_eq_of_cover 10 (result m c) (fun t _ => flushed_eq m c t) cover

/-! ## The run -/

/-- Every weakly fair execution of the kernel program ends with the result array at the specification's and the
    argument arrays unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 10).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 5).trans (((dats m 0 c).arrAt_in 5 rfl _).trans ((A_eq m c 5).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.DeepCross.Kern

end
-- ==== Proof.RefRow.lean ====
/-
  The reference program, read one operation at a time, computes the network of Spec.lean on every row.

  Its gathered and flattened embedding matrix (the seventh operation's result) is kept whole and never opened: row b of it
  is the row r of the specification.  Each cross layer is a matrix-vector product of the running matrix with one weight
  column (a slice of the weight array, reshaped), a bias (a one-entry slice, reshaped to a scalar and repeated), and a
  multiplication of the embedding matrix by the resulting column repeated along the rows; each of these, read at a row
  b and a feature d, is the corresponding line of the specification.  The dense layers are matrix products plus a
  repeated bias under max(·, 0).  The last product is of the concatenation (h ‖ r) with the whole final weight column:
  its sum over 16 + 8192 terms splits into the sum over the first 16 and the sum over the rest.  The closing
  negate / exponential / add one / divide is the logistic function.
-/
import proofs.«102186_j43224550867491_1_alg».proof.Proof.Gen.ReferenceIdeal.Read
import proofs.«102186_j43224550867491_1_alg».proof.Proof.Spec
import Idealize.ShloMosaic.Lib.ValueLayout

noncomputable section

open scoped BigOperators

namespace Cert.DeepCross.Ref

open Cert.ReferenceIdeal Cert.ReferenceIdeal.Gen Cert.ReferenceIdeal.Read Idealize.ShloMosaic Idealize.ShloMosaic.ValueIdx
open Cert.DeepCross

variable (x0 : (⟨S8192x128, .i32⟩ : BufTy).Contents (Elt Ideal)) (x1 : (⟨S100000x64, .f32⟩ : BufTy).Contents (Elt Ideal))
  (x2 : (⟨S4x8192x1, .f32⟩ : BufTy).Contents (Elt Ideal)) (x3 : (⟨S4, .f32⟩ : BufTy).Contents (Elt Ideal))
  (x4 : (⟨S8192x32, .f32⟩ : BufTy).Contents (Elt Ideal)) (x5 : (⟨S32, .f32⟩ : BufTy).Contents (Elt Ideal))
  (x6 : (⟨S32x16, .f32⟩ : BufTy).Contents (Elt Ideal)) (x7 : (⟨S16, .f32⟩ : BufTy).Contents (Elt Ideal))
  (x8 : (⟨S8208x1, .f32⟩ : BufTy).Contents (Elt Ideal)) (x9 : (⟨S1, .f32⟩ : BufTy).Contents (Elt Ideal))

/-! ## The cross layers' weight columns: slice l of the weight array, as a column -/

theorem weight0 (d : Fin 8192) (z : Fin 1) : val_main_v9 (F := Ideal) x2 (ix2 d z) = crossW x2 0 d := by
  rw [val_main_v9_apply, val_main_v8_apply, crossW_apply]
  refine congrArg x2 (funext fun a => Fin.ext ?_)
  have hz : z.val = 0 := by omega
  have hd := d.isLt
  match a with
  | ⟨0, _⟩ => rfl
  | ⟨1, _⟩ => show (d.val * 1 + z.val) / 1 % 8192 = d.val; omega
  | ⟨2, _⟩ => rfl

theorem weight1 (d : Fin 8192) (z : Fin 1) : val_main_v19 (F := Ideal) x2 (ix2 d z) = crossW x2 1 d := by
  rw [val_main_v19_apply, val_main_v18_apply, crossW_apply]
  refine congrArg x2 (funext fun a => Fin.ext ?_)
  have hz : z.val = 0 := by omega
  have hd := d.isLt
  match a with
  | ⟨0, _⟩ => rfl
  | ⟨1, _⟩ => show (d.val * 1 + z.val) / 1 % 8192 = d.val; omega
  | ⟨2, _⟩ => rfl

theorem weight2 (d : Fin 8192) (z : Fin 1) : val_main_v28 (F := Ideal) x2 (ix2 d z) = crossW x2 2 d := by
  rw [val_main_v28_apply, val_main_v27_apply, crossW_apply]
  refine congrArg x2 (funext fun a => Fin.ext ?_)
  have hz : z.val = 0 := by omega
  have hd := d.isLt
  match a with
  | ⟨0, _⟩ => rfl
  | ⟨1, _⟩ => show (d.val * 1 + z.val) / 1 % 8192 = d.val; omega
  | ⟨2, _⟩ => rfl

theorem weight3 (d : Fin 8192) (z : Fin 1) : val_main_v38 (F := Ideal) x2 (ix2 d z) = crossW x2 3 d := by
  rw [val_main_v38_apply, val_main_v37_apply, crossW_apply]
  refine congrArg x2 (funext fun a => Fin.ext ?_)
  have hz : z.val = 0 := by omega
  have hd := d.isLt
  match a with
  | ⟨0, _⟩ => rfl
  | ⟨1, _⟩ => show (d.val * 1 + z.val) / 1 % 8192 = d.val; omega
  | ⟨2, _⟩ => rfl

/-! ## The cross layers' biases: entry l of the bias array, made a scalar and repeated -/

theorem bias0 (i : S8192x1.Idx) : val_main_v13 (F := Ideal) x3 i = crossB x3 0 := by
  rw [val_main_v13_apply, crossB_apply]
  unfold val_main_v12
  refine (shapeCast_apply (val_main_v11 (F := Ideal) x3) _ _ (ix1 (0 : Fin 1)) ?_).trans ?_
  · rw [Shape.rowMajor_val_one]; exact (Shape.rowMajorPi_zero _ _).symm
  · rw [val_main_v11_apply]
    refine congrArg x3 (funext fun a => Fin.ext ?_)
    match a with
    | ⟨0, _⟩ => rfl

theorem bias1 (i : S8192x1.Idx) : val_main_v23 (F := Ideal) x3 i = crossB x3 1 := by
  rw [val_main_v23_apply, crossB_apply]
  unfold val_main_v22
  refine (shapeCast_apply (val_main_v21 (F := Ideal) x3) _ _ (ix1 (0 : Fin 1)) ?_).trans ?_
  · rw [Shape.rowMajor_val_one]; exact (Shape.rowMajorPi_zero _ _).symm
  · rw [val_main_v21_apply]
    refine congrArg x3 (funext fun a => Fin.ext ?_)
    match a with
    | ⟨0, _⟩ => rfl

theorem bias2 (i : S8192x1.Idx) : val_main_v32 (F := Ideal) x3 i = crossB x3 2 := by
  rw [val_main_v32_apply, crossB_apply]
  unfold val_main_v31
  refine (shapeCast_apply (val_main_v30 (F := Ideal) x3) _ _ (ix1 (0 : Fin 1)) ?_).trans ?_
  · rw [Shape.rowMajor_val_one]; exact (Shape.rowMajorPi_zero _ _).symm
  · rw [val_main_v30_apply]
    refine congrArg x3 (funext fun a => Fin.ext ?_)
    match a with
    | ⟨0, _⟩ => rfl

theorem bias3 (i : S8192x1.Idx) : val_main_v42 (F := Ideal) x3 i = crossB x3 3 := by
  rw [val_main_v42_apply, crossB_apply]
  unfold val_main_v41
  refine (shapeCast_apply (val_main_v40 (F := Ideal) x3) _ _ (ix1 (0 : Fin 1)) ?_).trans ?_
  · rw [Shape.rowMajor_val_one]; exact (Shape.rowMajorPi_zero _ _).symm
  · rw [val_main_v40_apply]
    refine congrArg x3 (funext fun a => Fin.ext ?_)
    match a with
    | ⟨0, _⟩ => rfl

/-! ## The four cross layers, at a row b -/

/-- Layer 0's gate: the product of the embedding matrix with weight column 0, plus bias 0, at row b. -/
theorem gate0 (b : Fin 8192) (z : Fin 1) :
    val_main_v14 (F := Ideal) x0 x1 x2 x3 (ix2 b z)
      = gate (erow (val_main_v7 (F := Ideal) x0 x1) b) (crossW x2 0) (crossB x3 0) := by
  rw [val_main_v14_apply, val_main_v10_apply, bias0]
  have es : ∀ k : Fin 8192, val_main_v7 (F := Ideal) x0 x1 (lidx_main_v10 (ix2 b z) k) * val_main_v9 (F := Ideal) x2 (ridx_main_v10 (ix2 b z) k)
      = erow (val_main_v7 (F := Ideal) x0 x1) b k * crossW x2 0 k := fun k => by
    have el : lidx_main_v10 (ix2 b z) k = ix2 b k := funext fun a => Fin.ext (by match a with | ⟨0, _⟩ => rfl | ⟨1, _⟩ => rfl)
    have er : ridx_main_v10 (ix2 b z) k = ix2 k z := funext fun a => Fin.ext (by match a with | ⟨0, _⟩ => rfl | ⟨1, _⟩ => rfl)
    rw [el, er, weight0]; rfl
  exact congrArg (fun s : EReal => s + crossB x3 0) (Finset.sum_congr rfl fun k _ => es k)

/-- The running matrix after layer 0. -/
theorem row1 (b d : Fin 8192) :
    val_main_v17 (F := Ideal) x0 x1 x2 x3 (ix2 b d)
      = temp1 (erow (val_main_v7 (F := Ideal) x0 x1) b) (crossW x2) (crossB x3) d := by
  have e : idx_main_v15 (ix2 b d) = ix2 b (0 : Fin 1) := funext fun a => Fin.ext (by match a with | ⟨0, _⟩ => rfl | ⟨1, _⟩ => rfl)
  rw [val_main_v17_apply, val_main_v16_apply, val_main_v15_apply, e, gate0]
  rfl

theorem gate1 (b : Fin 8192) (z : Fin 1) :
    val_main_v24 (F := Ideal) x0 x1 x2 x3 (ix2 b z)
      = gate (temp1 (erow (val_main_v7 (F := Ideal) x0 x1) b) (crossW x2) (crossB x3)) (crossW x2 1) (crossB x3 1) := by
  rw [val_main_v24_apply, val_main_v20_apply, bias1]
  have es : ∀ k : Fin 8192, val_main_v17 (F := Ideal) x0 x1 x2 x3 (lidx_main_v20 (ix2 b z) k) * val_main_v19 (F := Ideal) x2 (ridx_main_v20 (ix2 b z) k)
      = temp1 (erow (val_main_v7 (F := Ideal) x0 x1) b) (crossW x2) (crossB x3) k * crossW x2 1 k := fun k => by
    have el : lidx_main_v20 (ix2 b z) k = ix2 b k := funext fun a => Fin.ext (by match a with | ⟨0, _⟩ => rfl | ⟨1, _⟩ => rfl)
    have er : ridx_main_v20 (ix2 b z) k = ix2 k z := funext fun a => Fin.ext (by match a with | ⟨0, _⟩ => rfl | ⟨1, _⟩ => rfl)
    rw [el, er, weight1, row1]
  exact congrArg (fun s : EReal => s + crossB x3 1) (Finset.sum_congr rfl fun k _ => es k)

/-- After layer 1. -/
theorem row2 (b d : Fin 8192) :
    val_main_v26 (F := Ideal) x0 x1 x2 x3 (ix2 b d)
      = temp2 (erow (val_main_v7 (F := Ideal) x0 x1) b) (crossW x2) (crossB x3) d := by
  have e : idx_main_v25 (ix2 b d) = ix2 b (0 : Fin 1) := funext fun a => Fin.ext (by match a with | ⟨0, _⟩ => rfl | ⟨1, _⟩ => rfl)
  rw [val_main_v26_apply, val_main_v25_apply, e, gate1]
  rfl

theorem gate2 (b : Fin 8192) (z : Fin 1) :
    val_main_v33 (F := Ideal) x0 x1 x2 x3 (ix2 b z)
      = gate (temp2 (erow (val_main_v7 (F := Ideal) x0 x1) b) (crossW x2) (crossB x3)) (crossW x2 2) (crossB x3 2) := by
  rw [val_main_v33_apply, val_main_v29_apply, bias2]
  have es : ∀ k : Fin 8192, val_main_v26 (F := Ideal) x0 x1 x2 x3 (lidx_main_v29 (ix2 b z) k) * val_main_v28 (F := Ideal) x2 (ridx_main_v29 (ix2 b z) k)
      = temp2 (erow (val_main_v7 (F := Ideal) x0 x1) b) (crossW x2) (crossB x3) k * crossW x2 2 k := fun k => by
    have el : lidx_main_v29 (ix2 b z) k = ix2 b k := funext fun a => Fin.ext (by match a with | ⟨0, _⟩ => rfl | ⟨1, _⟩ => rfl)
    have er : ridx_main_v29 (ix2 b z) k = ix2 k z := funext fun a => Fin.ext (by match a with | ⟨0, _⟩ => rfl | ⟨1, _⟩ => rfl)
    rw [el, er, weight2, row2]
  exact congrArg (fun s : EReal => s + crossB x3 2) (Finset.sum_congr rfl fun k _ => es k)

/-- After layer 2. -/
theorem row3 (b d : Fin 8192) :
    val_main_v36 (F := Ideal) x0 x1 x2 x3 (ix2 b d)
      = temp3 (erow (val_main_v7 (F := Ideal) x0 x1) b) (crossW x2) (crossB x3) d := by
  have e : idx_main_v34 (ix2 b d) = ix2 b (0 : Fin 1) := funext fun a => Fin.ext (by match a with | ⟨0, _⟩ => rfl | ⟨1, _⟩ => rfl)
  rw [val_main_v36_apply, val_main_v35_apply, val_main_v34_apply, e, gate2, row2]
  rfl

theorem gate3 (b : Fin 8192) (z : Fin 1) :
    val_main_v43 (F := Ideal) x0 x1 x2 x3 (ix2 b z)
      = gate (temp3 (erow (val_main_v7 (F := Ideal) x0 x1) b) (crossW x2) (crossB x3)) (crossW x2 3) (crossB x3 3) := by
  rw [val_main_v43_apply, val_main_v39_apply, bias3]
  have es : ∀ k : Fin 8192, val_main_v36 (F := Ideal) x0 x1 x2 x3 (lidx_main_v39 (ix2 b z) k) * val_main_v38 (F := Ideal) x2 (ridx_main_v39 (ix2 b z) k)
      = temp3 (erow (val_main_v7 (F := Ideal) x0 x1) b) (crossW x2) (crossB x3) k * crossW x2 3 k := fun k => by
    have el : lidx_main_v39 (ix2 b z) k = ix2 b k := funext fun a => Fin.ext (by match a with | ⟨0, _⟩ => rfl | ⟨1, _⟩ => rfl)
    have er : ridx_main_v39 (ix2 b z) k = ix2 k z := funext fun a => Fin.ext (by match a with | ⟨0, _⟩ => rfl | ⟨1, _⟩ => rfl)
    rw [el, er, weight3, row3]
  exact congrArg (fun s : EReal => s + crossB x3 3) (Finset.sum_congr rfl fun k _ => es k)

/-- After layer 3: what the dense layers are fed. -/
theorem row4 (b d : Fin 8192) :
    val_main_v45 (F := Ideal) x0 x1 x2 x3 (ix2 b d)
      = temp4 (erow (val_main_v7 (F := Ideal) x0 x1) b) (crossW x2) (crossB x3) d := by
  have e : idx_main_v44 (ix2 b d) = ix2 b (0 : Fin 1) := funext fun a => Fin.ext (by match a with | ⟨0, _⟩ => rfl | ⟨1, _⟩ => rfl)
  rw [val_main_v45_apply, val_main_v44_apply, e, gate3]
  rfl

/-! ## The two dense layers -/

theorem hidden1 (b : Fin 8192) (n : Fin 32) :
    val_main_v50 (F := Ideal) x0 x1 x2 x3 x4 x5 (ix2 b n)
      = dense (temp4 (erow (val_main_v7 (F := Ideal) x0 x1) b) (crossW x2) (crossB x3)) (mat x4) (vec x5) n := by
  have eb : idx_main_v47 (idx_main_v48 (ix2 b n)) = ix1 n := funext fun a => Fin.ext (by match a with | ⟨0, _⟩ => rfl)
  rw [val_main_v50_apply, val_main_v49_apply, val_main_v46_apply, val_main_v48_apply, val_main_v47_apply, eb,
    val_main_call0_v0_apply, val_main_call0_cst_apply]
  have es : ∀ k : Fin 8192, val_main_v45 (F := Ideal) x0 x1 x2 x3 (lidx_main_v46 (ix2 b n) k) * x4 (ridx_main_v46 (ix2 b n) k)
      = temp4 (erow (val_main_v7 (F := Ideal) x0 x1) b) (crossW x2) (crossB x3) k * mat x4 k n := fun k => by
    have el : lidx_main_v46 (ix2 b n) k = ix2 b k := funext fun a => Fin.ext (by match a with | ⟨0, _⟩ => rfl | ⟨1, _⟩ => rfl)
    have er : ridx_main_v46 (ix2 b n) k = ix2 k n := funext fun a => Fin.ext (by match a with | ⟨0, _⟩ => rfl | ⟨1, _⟩ => rfl)
    rw [el, er, row4]; rfl
  exact congrArg (fun s : EReal => max (s + vec x5 n) (Ideal.ofBits .f32 0x00000000#32)) (Finset.sum_congr rfl fun k _ => es k)

theorem hidden2 (b : Fin 8192) (j : Fin 16) :
    val_main_v55 (F := Ideal) x0 x1 x2 x3 x4 x5 x6 x7 (ix2 b j)
      = dense (dense (temp4 (erow (val_main_v7 (F := Ideal) x0 x1) b) (crossW x2) (crossB x3)) (mat x4) (vec x5)) (mat x6) (vec x7) j := by
  have eb : idx_main_v52 (idx_main_v53 (ix2 b j)) = ix1 j := funext fun a => Fin.ext (by match a with | ⟨0, _⟩ => rfl)
  rw [val_main_v55_apply, val_main_v54_apply, val_main_v51_apply, val_main_v53_apply, val_main_v52_apply, eb,
    val_main_call1_v0_apply, val_main_call1_cst_apply]
  have es : ∀ k : Fin 32, val_main_v50 (F := Ideal) x0 x1 x2 x3 x4 x5 (lidx_main_v51 (ix2 b j) k) * x6 (ridx_main_v51 (ix2 b j) k)
      = dense (temp4 (erow (val_main_v7 (F := Ideal) x0 x1) b) (crossW x2) (crossB x3)) (mat x4) (vec x5) k * mat x6 k j := fun k => by
    have el : lidx_main_v51 (ix2 b j) k = ix2 b k := funext fun a => Fin.ext (by match a with | ⟨0, _⟩ => rfl | ⟨1, _⟩ => rfl)
    have er : ridx_main_v51 (ix2 b j) k = ix2 k j := funext fun a => Fin.ext (by match a with | ⟨0, _⟩ => rfl | ⟨1, _⟩ => rfl)
    rw [el, er, hidden1]; rfl
  exact congrArg (fun s : EReal => max (s + vec x7 j) (Ideal.ofBits .f32 0x00000000#32)) (Finset.sum_congr rfl fun k _ => es k)

/-! ## The concatenation (h ‖ r) against the whole final weight column -/

/-- Its first 16 columns are the second dense layer's output. -/
theorem joined_head (b : Fin 8192) (j : Fin 16) :
    val_main_v56 (F := Ideal) x0 x1 x2 x3 x4 x5 x6 x7 (ix2 b (⟨j.val, by omega⟩ : Fin 8208))
      = val_main_v55 (F := Ideal) x0 x1 x2 x3 x4 x5 x6 x7 (ix2 b j) := by
  unfold val_main_v56
  refine concatenate_pair_apply_left (s₁ := S8192x16) (s₂ := S8192x8192) (1 : Fin 2) _ _ _ (ix2 b (⟨j.val, by omega⟩ : Fin 8208)) rfl (ix2 b j) ?_
  intro a
  match a with
  | ⟨0, _⟩ => rfl
  | ⟨1, _⟩ => rfl

/-- The remaining 8192 are the embedding matrix. -/
theorem joined_tail (b d : Fin 8192) :
    val_main_v56 (F := Ideal) x0 x1 x2 x3 x4 x5 x6 x7 (ix2 b (⟨16 + d.val, by omega⟩ : Fin 8208))
      = val_main_v7 (F := Ideal) x0 x1 (ix2 b d) := by
  unfold val_main_v56
  refine concatenate_pair_apply_right (s₁ := S8192x16) (s₂ := S8192x8192) (1 : Fin 2) _ _ _ (ix2 b (⟨16 + d.val, by omega⟩ : Fin 8208)) rfl rfl (ix2 b d) ?_ ?_
  · intro a ha
    match a with
    | ⟨0, _⟩ => rfl
    | ⟨1, _⟩ => exact absurd rfl ha
  · show d.val + 16 = 16 + d.val; omega

/-- A sum over 16 + 8192 terms is the sum over the first 16 plus the sum over the rest. -/
theorem sum_cut (f : Fin 8208 → EReal) :
    (∑ k : Fin 8208, f k) = (∑ j : Fin 16, f ⟨j.val, by omega⟩) + ∑ d : Fin 8192, f ⟨16 + d.val, by omega⟩ :=
  Fin.sum_univ_add (a := 16) (b := 8192) f

/-- The pre-activation of the output, at row b. -/
theorem logit (b : Fin 8192) (z : Fin 1) :
    val_main_v60 (F := Ideal) x0 x1 x2 x3 x4 x5 x6 x7 x8 x9 (ix2 b z)
      = ((∑ j : Fin 16, dense (dense (temp4 (erow (val_main_v7 (F := Ideal) x0 x1) b) (crossW x2) (crossB x3)) (mat x4) (vec x5)) (mat x6) (vec x7) j * headW x8 j)
          + ∑ d : Fin 8192, erow (val_main_v7 (F := Ideal) x0 x1) b d * tailW x8 d) + x9 (ix1 (0 : Fin 1)) := by
  have hz : z = 0 := Fin.ext (by omega)
  subst hz
  have eb : idx_main_v58 (idx_main_v59 (ix2 b (0 : Fin 1))) = ix1 (0 : Fin 1) := funext fun a => Fin.ext (by match a with | ⟨0, _⟩ => rfl)
  rw [val_main_v60_apply, val_main_v57_apply, val_main_v59_apply, val_main_v58_apply, eb, sum_cut]
  have e1 : ∀ j : Fin 16, val_main_v56 (F := Ideal) x0 x1 x2 x3 x4 x5 x6 x7 (lidx_main_v57 (ix2 b (0 : Fin 1)) ⟨j.val, by omega⟩) * x8 (ridx_main_v57 (ix2 b (0 : Fin 1)) ⟨j.val, by omega⟩)
      = dense (dense (temp4 (erow (val_main_v7 (F := Ideal) x0 x1) b) (crossW x2) (crossB x3)) (mat x4) (vec x5)) (mat x6) (vec x7) j * headW x8 j := fun j => by
    have el : lidx_main_v57 (ix2 b (0 : Fin 1)) (⟨j.val, by omega⟩ : Fin 8208) = ix2 b (⟨j.val, by omega⟩ : Fin 8208) := funext fun a => Fin.ext (by match a with | ⟨0, _⟩ => rfl | ⟨1, _⟩ => rfl)
    have er : ridx_main_v57 (ix2 b (0 : Fin 1)) (⟨j.val, by omega⟩ : Fin 8208) = ix2 (⟨j.val, by omega⟩ : Fin 8208) (0 : Fin 1) := funext fun a => Fin.ext (by match a with | ⟨0, _⟩ => rfl | ⟨1, _⟩ => rfl)
    rw [el, er, joined_head, hidden2]; rfl
  have e2 : ∀ d : Fin 8192, val_main_v56 (F := Ideal) x0 x1 x2 x3 x4 x5 x6 x7 (lidx_main_v57 (ix2 b (0 : Fin 1)) ⟨16 + d.val, by omega⟩) * x8 (ridx_main_v57 (ix2 b (0 : Fin 1)) ⟨16 + d.val, by omega⟩)
      = erow (val_main_v7 (F := Ideal) x0 x1) b d * tailW x8 d := fun d => by
    have el : lidx_main_v57 (ix2 b (0 : Fin 1)) (⟨16 + d.val, by omega⟩ : Fin 8208) = ix2 b (⟨16 + d.val, by omega⟩ : Fin 8208) := funext fun a => Fin.ext (by match a with | ⟨0, _⟩ => rfl | ⟨1, _⟩ => rfl)
    have er : ridx_main_v57 (ix2 b (0 : Fin 1)) (⟨16 + d.val, by omega⟩ : Fin 8208) = ix2 (⟨16 + d.val, by omega⟩ : Fin 8208) (0 : Fin 1) := funext fun a => Fin.ext (by match a with | ⟨0, _⟩ => rfl | ⟨1, _⟩ => rfl)
    rw [el, er, joined_tail]; rfl
  exact congrArg₂ (fun s s' : EReal => (s + s') + x9 (ix1 (0 : Fin 1))) (Finset.sum_congr rfl fun j _ => e1 j) (Finset.sum_congr rfl fun d _ => e2 d)

/-! ## The result -/

/-- The reference's result array is the specification's, of its own embedding matrix and the nine parameter arrays. -/
theorem ref_eq :
    val_main_v66 (F := Ideal) x0 x1 x2 x3 x4 x5 x6 x7 x8 x9 = outArr (val_main_v7 (F := Ideal) x0 x1) x2 x3 x4 x5 x6 x7 x8 x9 := by
  funext i
  obtain ⟨b, z, rfl⟩ : ∃ (b : Fin 8192) (z : Fin 1), i = ix2 b z := ⟨i 0, i 1, eq_ix2 i⟩
  rw [outArr_apply, val_main_v66_apply, val_main_v65_apply, val_main_cst_1_apply, val_main_v64_apply, val_main_v63_apply,
    val_main_cst_apply, val_main_v62_apply, val_main_v61_apply, logit]
  exact logistic_expanded _

end Cert.DeepCross.Ref

end
-- ==== Proof.lean ====
/-
  The kernel and its reference compute one function.

  Both programs first gather rows of the embedding table (negative indices shifted by the table's length, the same
  operations in the same order) and flatten them to an 8192 × 8192 matrix; that matrix is one term of the index and table
  arguments, kept whole on both sides.  From there each row goes through the deep-and-cross network of Proof/Spec.lean:
  four cross layers, two dense layers with the rectifier, and the logistic function of the final weighted sum.

  The kernel does this 128 rows at a time with every parameter staged whole (Proof/KernelRow.lean: what the body stores,
  read at a row; Proof/KernelArray.lean: the 64 blocks cover the result column); the reference does it on whole arrays
  (Proof/RefRow.lean).  They differ in layout — the first dense weight matrix held transposed, operands retyped to a
  shorter float format, which on the extended reals is the identity — and in one regrouping: the reference multiplies the
  concatenation (h ‖ r) by the whole final weight column, the kernel adds the sum over the first 16 entries to the sum over
  the other 8192.  Addition of extended reals is commutative and associative, so the two agree on every input, finite
  or not; the precondition is not used.  The closing 1 / (1 + e^(-x)) of the reference is the kernel's logistic function.

  The three programs' frames are the generated ones (the reference's is its generated run with the result dropped), and
  the idealization rewrote no operation, so its conjunct is trivial.
-/
import proofs.«102186_j43224550867491_1_alg».proof.Defs
import proofs.«102186_j43224550867491_1_alg».proof.Proof.Gen.Kernel
import proofs.«102186_j43224550867491_1_alg».proof.Proof.Gen.Kernel.Frame
import proofs.«102186_j43224550867491_1_alg».proof.Proof.Gen.KernelIdeal
import proofs.«102186_j43224550867491_1_alg».proof.Proof.Gen.KernelIdeal.Frame
import proofs.«102186_j43224550867491_1_alg».proof.Proof.Gen.ReferenceIdeal
import proofs.«102186_j43224550867491_1_alg».proof.Proof.Gen.Pre_finite_inputs
import proofs.«102186_j43224550867491_1_alg».proof.Proof.Gen.ReferenceIdeal.Run
import proofs.«102186_j43224550867491_1_alg».proof.Proof.Gen.ReferenceIdeal.Read
import proofs.«102186_j43224550867491_1_alg».proof.Proof.KernelArray
import proofs.«102186_j43224550867491_1_alg».proof.Proof.RefRow
import Idealize.ShloMosaic.Lib.StableHlo.Run
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The embedding matrix the kernel program hands its call is the reference's: the same gather of the same shifted
    indices, flattened the same way, of the index and table arguments. -/
theorem embedded_eq (m : (ℓ : Loc Cert.KernelIdeal.nD Cert.KernelIdeal.τ Cert.KernelIdeal.sig) → Buf (Elt Ideal) ℓ) (c : Dev Cert.KernelIdeal.nD) :
    Cert.DeepCross.Kern.embedded m c = Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  unfold Cert.DeepCross.Kern.embedded
  dsimp only [Cert.KernelIdeal.Gen.V, Cert.KernelIdeal.Gen.hostOps0]
  after_results <;> rfl

/-- At the extended reals both programs end with the specification's result array of arguments that agree. -/
theorem algebraic : Cert.algebraic_KernelIdeal_ReferenceIdeal := by
  intro m ρ m' ρ' _ hagree
  refine ⟨fun c => Cert.DeepCross.Kern.result m c, Cert.DeepCross.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v66_eq, Cert.DeepCross.Ref.ref_eq, h0, h1, h2, h3, h4, h5, h6, h7, h8, h9]
  show _ = Cert.DeepCross.Kern.result m c
  unfold Cert.DeepCross.Kern.result
  rw [embedded_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
